-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg7 : FVec F S96 .f32) (main_v33 : IVec S_ 1) : IVec S_ 1 :=
  let main_v34 : FVec F S96 .f32 := Host.absf main_arg7
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  main_v38

def fn_part1 {F : FTy → Type} [FloatOps F] (main_arg4 : FVec F S96x96 .f32) (main_arg5 : FVec F S96 .f32) (main_arg6 : FVec F S96x96 .f32) (main_arg7 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg6
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg7 main_v33

def fn {F : FTy → Type} [FloatOps F] (main_arg0 : FVec F S50000x96 .f32) (main_arg1 : FVec F S800000 .f32) (main_arg2 : FVec F S96x96 .f32) (main_arg3 : FVec F S96 .f32) (main_arg4 : FVec F S96x96 .f32) (main_arg5 : FVec F S96 .f32) (main_arg6 : FVec F S96x96 .f32) (main_arg7 : FVec F S96 .f32) (main_arg8 : IVec S800000 32) (main_arg9 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S800000x1 : Shape := ⟨2, ![800000, 1]⟩
abbrev S_ : Shape := ⟨0, ![]⟩
abbrev S800000x96 : Shape := ⟨2, ![800000, 96]⟩
abbrev S50000 : Shape := ⟨1, ![50000]⟩
abbrev S50000x1 : Shape := ⟨2, ![50000, 1]⟩
abbrev S2000x96 : Shape := ⟨2, ![2000, 96]⟩
abbrev S2000x1 : Shape := ⟨2, ![2000, 1]⟩

abbrev nBuf : Space → Nat
  | .hbm => 37
  | .vmem => 14
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S800000, .i32⟩
  | .hbm, ⟨9, _⟩ => ⟨S800000, .i32⟩
  | .hbm, ⟨10, _⟩ => ⟨S1x96, .f32⟩
  | .hbm, ⟨11, _⟩ => ⟨S1x96, .f32⟩
  | .hbm, ⟨12, _⟩ => ⟨S1x96, .f32⟩
  | .hbm, ⟨13, _⟩ => ⟨S50000x96, .bf16⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .bf16⟩
  | .hbm, ⟨24, _⟩ => ⟨S800000x96, .f32⟩
  | .hbm, ⟨25, _⟩ => ⟨S800000x96, .f32⟩
  | .hbm, ⟨26, _⟩ => ⟨S800000x96, .f32⟩
  | .hbm, ⟨27, _⟩ => ⟨S_, .f32⟩
  | .hbm, ⟨28, _⟩ => ⟨S50000x96, .f32⟩
  | .hbm, ⟨29, _⟩ => ⟨S800000x1, .i32⟩
  | .hbm, ⟨30, _⟩ => ⟨S50000x96, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S50000x1, .f32⟩
  | .hbm, ⟨36, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S2000x1, .f32⟩
  | .local _ .vmem, ⟨5, _⟩ => ⟨S2000x1, .f32⟩
  | .local _ .vmem, ⟨6, _⟩ => ⟨S96x96, .f32⟩
  | .local _ .vmem, ⟨7, _⟩ => ⟨S1x96, .f32⟩
  | .local _ .vmem, ⟨8, _⟩ => ⟨S96x96, .f32⟩
  | .local _ .vmem, ⟨9, _⟩ => ⟨S1x96, .f32⟩
  | .local _ .vmem, ⟨10, _⟩ => ⟨S96x96, .f32⟩
  | .local _ .vmem, ⟨11, _⟩ => ⟨S1x96, .f32⟩
  | .local _ .vmem, ⟨12, _⟩ => ⟨S2000x96, .f32⟩
  | .local _ .vmem, ⟨13, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S96_S1x96 : S96.ShapeCasts S1x96
  bitsLt_bf16_f32 : FTy.bits .bf16 < FTy.bits .f32
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S_S50000 : S_.BroadcastsInDim S50000 (![] : Fin 0 → Fin S50000.rank)
  shapeCasts_S50000_S50000x1 : S50000.ShapeCasts S50000x1
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S2000x1_S2000x96 : S2000x1.Broadcasts S2000x96
  broadcasts_S1x96_S2000x96 : S1x96.Broadcasts S2000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S2000x96_S96x96_S2000x96_1_0_0_1_n_n_wf : DotDims.WF S2000x96 S96x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x96.size a ≤ S96x96.size a
  hwx0_5 : ∀ i : grid0.Coords, EltTy.bits .f32 = 32 ∨ (Rect.block (s := S96x96) S96x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x96.size a ≤ S96x96.size a
  hwx0_7 : ∀ i : grid0.Coords, EltTy.bits .f32 = 32 ∨ (Rect.block (s := S96x96) S96x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x96.size a ≤ S1x96.size a
  hwx0_8 : ∀ i : grid0.Coords, EltTy.bits .f32 = 32 ∨ (Rect.block (s := S1x96) S1x96.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x96.size a ≤ S50000x96.size a
  hwx0_9 : ∀ i : grid0.Coords, EltTy.bits .f32 = 32 ∨ (Rect.block (s := S50000x96) S2000x96.size (cc0_transform_9 i) (hinb0_9 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S96x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S96x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S2000x96.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S800000x1 : Shape := ⟨2, ![800000, 1]⟩
abbrev S_ : Shape := ⟨0, ![]⟩
abbrev S800000x96 : Shape := ⟨2, ![800000, 96]⟩

abbrev nBuf : Space → Nat
  | .hbm => 53
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S800000, .i32⟩
  | .hbm, ⟨9, _⟩ => ⟨S800000, .i32⟩
  | .hbm, ⟨10, _⟩ => ⟨S50000x96, .f32⟩
  | .hbm, ⟨11, _⟩ => ⟨S1x96, .f32⟩
  | .hbm, ⟨12, _⟩ => ⟨S50000x96, .f32⟩
  | .hbm, ⟨13, _⟩ => ⟨S50000x96, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S50000x96, .f32⟩
  | .hbm, ⟨31, _⟩ => ⟨S1x96, .f32⟩
  | .hbm, ⟨32, _⟩ => ⟨S50000x96, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S1x96, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S50000x96, .f32⟩
  | .hbm, ⟨41, _⟩ => ⟨S_, .f32⟩
  | .hbm, ⟨42, _⟩ => ⟨S50000x96, .f32⟩
  | .hbm, ⟨43, _⟩ => ⟨S50000x96, .f32⟩
  | .hbm, ⟨44, _⟩ => ⟨S_, .f32⟩
  | .hbm, ⟨45, _⟩ => ⟨S50000x96, .f32⟩
  | .hbm, ⟨46, _⟩ => ⟨S50000x96, .f32⟩
  | .hbm, ⟨47, _⟩ => ⟨S50000x96, .f32⟩
  | .hbm, ⟨48, _⟩ => ⟨S_, .f32⟩
  | .hbm, ⟨49, _⟩ => ⟨S50000x96, .f32⟩
  | .hbm, ⟨50, _⟩ => ⟨S50000x96, .f32⟩
  | .hbm, ⟨51, _⟩ => ⟨S50000x96, .f32⟩
  | .hbm, ⟨52, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.LibRowGatherScatter.lean ====
/-
  Gathering rows and scatter-adding rows, read at an index.

  `x[idx]` for a matrix `x : [N, C]` and an index column `idx : [E, 1]` is a gather with one collapsed axis: result row `e` is
  row `clampRow (idx[e, 0])` of `x`, the start index read as a signed integer and clamped into `[0, N − 1]`. The same for a
  vector `x : [N]`. A scatter-add of rows `upd : [E, C]` into `x : [N, C]` at an index column adds, to element `(p, q)`, the
  elements `upd[e, q]` of exactly those rows `e` whose index, read signed and NOT clamped, is `p`; a row whose index falls
  outside `[0, N)` is dropped. So a segment sum is a sum over the filter `{e | idx[e, 0] = p}` of one column.
-/
import Idealize.ShloMosaic.PureOps.Ideal
import Idealize.ShloMosaic.Lib.ValueIdx

noncomputable section

open scoped BigOperators

namespace Cert.RowGatherScatter

open Idealize.ShloMosaic Idealize.ShloMosaic.ValueIdx

/-- The row a start index selects: the word read as a signed integer, clamped into `[0, N − 1]`. -/
def clampRow (N : Nat) (hN : 0 < N) {w : Nat} (v : BitVec w) : Fin N := ⟨min v.toInt.toNat (N - 1), by omega⟩

/-- A word whose signed value is the row `p` selects that row. -/
theorem clampRow_of_toInt {N : Nat} (hN : 0 < N) {w : Nat} (v : BitVec w) (p : Fin N) (h : v.toInt = (p.val : Int)) :
    clampRow N hN v = p := by
  apply Fin.ext
  show min v.toInt.toNat (N - 1) = p.val
  have hp := p.isLt
  rw [h]; simp only [Int.toNat_natCast]; omega

/-! ## Rows of a matrix gathered at an index column -/

section RowGather
variable {α : Type}

/-- The dimension numbers of `x[idx]` for `x : [N, C]`, `idx : [E, 1]`: rows are collapsed, columns are the offset axis. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, q)` of the gathered rows is element `q` of the row the index `idx[e, 0]` selects. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (clampRow N hN (idx (ix2 e (0 : Fin 1)))) q) := by
  unfold Host.gather
  congr 1
  funext a
  refine Fin.ext ?_
  match a with
  | ⟨0, _⟩ =>
    show (rowGatherDims N E C wf).start (ix2 e q) idx 0 + (rowGatherDims N E C wf).batchCoord (ix2 e q) 0
        + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
        + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    rw [hs]
    simp only [Nat.add_zero, Nat.zero_add]
    have hk : (1 : Fin 2) ∈ (rowGatherDims N E C wf).sKept :=
      (GatherDims.mem_sKept _ _).mpr ⟨(show ¬ (1 : Fin 2) ∈ ([0] : List (Fin 2)) by decide), List.not_mem_nil⟩
    unfold GatherDims.offCoord
    rw [dif_pos hk]
    rfl

end RowGather

/-! ## Elements of a vector gathered at an index column -/

section VecGather
variable {α : Type}

/-- The dimension numbers of `x[idx]` for `x : [N]`, `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered vector is the element the index `idx[e, 0]` selects. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## Rows scatter-added into a matrix at an index column -/

section RowScatter

/-- The dimension numbers of `x.at[idx].add(upd)` for `x : [N, C]`, `idx : [E, 1]`, `upd : [E, C]`: the update's columns are
    its window axis, the operand's rows are the inserted axis the index names. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- On the row axis the window of update element `(e, q)` starts at the index `idx[e, 0]`, read signed. -/
theorem rowScatter_start0 : (rowScatterDims N E C wf).start (ix2 e q) idx 0 = (idx (ix2 e (0 : Fin 1))).toInt := by
  unfold ScatterDims.start
  rw [dif_pos (show (0 : Fin 2) ∈ ([0] : List (Fin 2)) from List.mem_singleton.mpr rfl)]
  have hsi : (rowScatterDims N E C wf).siIdx (ix2 e q) ⟨List.idxOf (0 : Fin 2) ([0] : List (Fin 2)),
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- On the column axis it starts at `0`: the index names no column. -/
theorem rowScatter_start1 : (rowScatterDims N E C wf).start (ix2 e q) idx 1 = 0 := by
  unfold ScatterDims.start
  rw [dif_neg (show ¬ (1 : Fin 2) ∈ ([0] : List (Fin 2)) by decide)]
/-- The row axis is inserted: no window coordinate. -/
theorem rowScatter_window0 : (rowScatterDims N E C wf).window (ix2 e q) 0 = 0 := by
  have h : ¬ (0 : Fin 2) ∈ (rowScatterDims N E C wf).sKept :=
    (show ¬ (0 : Fin 2) ∈ (List.finRange 2).filter (· ∉ ([0] : List (Fin 2))) by decide)
  unfold ScatterDims.window
  rw [dif_neg h]
/-- The column axis takes the update's column. -/
theorem rowScatter_window1 : (rowScatterDims N E C wf).window (ix2 e q) 1 = q.val := by
  have h : (1 : Fin 2) ∈ (rowScatterDims N E C wf).sKept :=
    (show (1 : Fin 2) ∈ (List.finRange 2).filter (· ∉ ([0] : List (Fin 2))) by decide)
  unfold ScatterDims.window
  rw [dif_pos h]
  rfl

/-- UPDATE ELEMENT `(e, q)` LANDS ON `(p, r)` exactly when its index, read signed, is the row `p` and its column is `r`. -/
theorem rowScatter_resultIdx?_iff (p : Fin N) (r : Fin C) :
    (rowScatterDims N E C wf).resultIdx? (ix2 e q) idx = some (ix2 p r)
      ↔ (idx (ix2 e (0 : Fin 1))).toInt = (p.val : Int) ∧ q = r := by
  have s0 := rowScatter_start0 wf idx e q
  have s1 := rowScatter_start1 wf idx e q
  have w0 := rowScatter_window0 wf e q
  have w1 := rowScatter_window1 wf e q
  have hp := p.isLt
  have hq := q.isLt
  unfold ScatterDims.resultIdx?
  constructor
  · intro h
    split at h
    · rename_i hin
      have hf := Option.some.inj h
      have h0 := congrArg (fun f => (f 0).val) hf
      have h1 := congrArg (fun f => (f 1).val) hf
      simp only at h0 h1
      have hin0 := hin 0
      rw [s0, w0] at h0 hin0
      rw [s1, w1] at h1
      refine ⟨?_, Fin.ext ?_⟩
      · have h0' : ((idx (ix2 e (0 : Fin 1))).toInt + ((0 : Nat) : Int)).toNat = p.val := h0
        have hin0' : 0 ≤ (idx (ix2 e (0 : Fin 1))).toInt + ((0 : Nat) : Int) := hin0.1
        omega
      · have h1' : ((0 : Int) + ((q.val : Nat) : Int)).toNat = r.val := h1
        omega
    · exact absurd h (by simp)
  · rintro ⟨h0, rfl⟩
    have hin : ∀ a : Fin 2, 0 ≤ (rowScatterDims N E C wf).start (ix2 e q) idx a + ((rowScatterDims N E C wf).window (ix2 e q) a : Int)
        ∧ (rowScatterDims N E C wf).start (ix2 e q) idx a + ((rowScatterDims N E C wf).window (ix2 e q) a : Int)
          < ((⟨2, ![N, C]⟩ : Shape).size a : Int) := by
      intro a
      match a with
      | ⟨0, _⟩ =>
        show 0 ≤ (rowScatterDims N E C wf).start (ix2 e q) idx 0 + ((rowScatterDims N E C wf).window (ix2 e q) 0 : Int)
          ∧ (rowScatterDims N E C wf).start (ix2 e q) idx 0 + ((rowScatterDims N E C wf).window (ix2 e q) 0 : Int) < (N : Int)
        rw [s0, w0, h0]; omega
      | ⟨1, _⟩ =>
        show 0 ≤ (rowScatterDims N E C wf).start (ix2 e q) idx 1 + ((rowScatterDims N E C wf).window (ix2 e q) 1 : Int)
          ∧ (rowScatterDims N E C wf).start (ix2 e q) idx 1 + ((rowScatterDims N E C wf).window (ix2 e q) 1 : Int) < (C : Int)
        rw [s1, w1]; omega
    rw [dif_pos hin]
    congr 1
    funext a
    refine Fin.ext ?_
    match a with
    | ⟨0, _⟩ =>
      show ((rowScatterDims N E C wf).start (ix2 e q) idx 0 + ((rowScatterDims N E C wf).window (ix2 e q) 0 : Int)).toNat = p.val
      rw [s0, w0, h0]; omega
    | ⟨1, _⟩ =>
      show ((rowScatterDims N E C wf).start (ix2 e q) idx 1 + ((rowScatterDims N E C wf).window (ix2 e q) 1 : Int)).toNat = q.val
      rw [s1, w1]; omega

/-- THE SCATTER-ADD READ AT `(p, r)`: the operand's element plus the sum, over the rows `e` whose index is `p`, of
    the update's element `(e, r)`. -/
theorem rowScatterAdd_apply (x : (⟨2, ![N, C]⟩ : Shape).Idx → EReal) (upd : (⟨2, ![E, C]⟩ : Shape).Idx → EReal)
    (p : Fin N) (r : Fin C) :
    Ideal.hostScatterAdd (rowScatterDims N E C wf) x idx upd (ix2 p r)
      = x (ix2 p r) + ∑ e ∈ Finset.univ.filter (fun e : Fin E => (idx (ix2 e (0 : Fin 1))).toInt = (p.val : Int)), upd (ix2 e r) := by
  unfold Ideal.hostScatterAdd
  congr 1
  rw [Finset.sum_filter, Finset.sum_filter, sum_idx2]
  refine Finset.sum_congr rfl fun e _ => ?_
  have hiff : ∀ q : Fin C, ((rowScatterDims N E C wf).resultIdx? (ix2 e q) idx = some (ix2 p r))
      ↔ ((idx (ix2 e (0 : Fin 1))).toInt = (p.val : Int) ∧ q = r) := fun q => rowScatter_resultIdx?_iff wf idx e q p r
  simp only [hiff]
  by_cases h0 : (idx (ix2 e (0 : Fin 1))).toInt = (p.val : Int)
  · simp only [h0, true_and, if_true]
    rw [Finset.sum_ite_eq' Finset.univ r (fun q => upd (ix2 e q))]
    simp
  · simp only [h0, false_and, if_false, Finset.sum_const_zero]

end RowScatter

end Cert.RowGatherScatter

end
-- ==== Proof.LibRealSums.lean ====
/-
  General facts about finite sums of real numbers inside the extended reals, used to move a computation
  whose every operand is a real number from the extended reals to the reals:

  * the inclusion of the reals commutes with finite sums (`coe_sum`);
  * a maximum taken from `⊥` over a nonempty finite family of reals is a real (`fold_max_real`);
  * the quotient of two reals with a nonzero divisor is the real quotient (`div_coe_coe`);
  * a sum over `Fin (m * n)` is the sum over `m` consecutive blocks of `n` terms (`sum_fin_blocks`),
    and a sum over a range of blocks is the same as the sum over `Fin m` (`sum_range_eq_fin`);
  * a softmax-weighted average does not depend on the shift: for every real `μ`,
    `∑ j, (exp (s j - μ) / ∑ j', exp (s j' - μ)) * b j = (∑ j, exp (s j) * b j) / ∑ j, exp (s j)`
    (`softmax_weighted`).
-/
import Idealize.ShloMosaic.PureOps.Ideal

noncomputable section

open scoped BigOperators

namespace Cert.LibRealSums

open Idealize.ShloMosaic

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, taken from `⊥`, of a nonempty finite family of reals is a real. -/
theorem fold_max_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    by_cases hs' : s.Nonempty
    · obtain ⟨r, hr⟩ := ih hs'
      rw [hr]
      exact ⟨max (f a) r, (EReal.coe_strictMono.monotone.map_max).symm⟩
    · rw [Finset.not_nonempty_iff_eq_empty.mp hs', Finset.fold_empty]
      exact ⟨f a, max_eq_left bot_le⟩

/-- The extended reals' quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- A sum over a range of naturals is the sum over the corresponding `Fin`. -/
theorem sum_range_eq_fin {M : Type*} [AddCommMonoid M] (m : ℕ) (f : ℕ → M) :
    ∑ s ∈ Finset.range m, f s = ∑ s : Fin m, f s.val :=
  (Fin.sum_univ_eq_sum_range f m).symm

/-- A sum over `m * n` consecutive indices is the sum over `m` blocks of `n` consecutive indices. -/
theorem sum_fin_blocks {M : Type*} [AddCommMonoid M] (m n : ℕ) (g : ℕ → M) :
    ∑ j : Fin (m * n), g j.val = ∑ s : Fin m, ∑ jj : Fin n, g (n * s.val + jj.val) := by
  rw [Fin.sum_univ_eq_sum_range g (m * n), Fin.sum_univ_eq_sum_range (fun s => ∑ jj : Fin n, g (n * s + jj.val)) m]
  induction m with
  | zero => simp
  | succ m ih =>
    rw [Finset.sum_range_succ, ← ih, Nat.succ_mul, Finset.sum_range_add, Nat.mul_comm m n,
      Fin.sum_univ_eq_sum_range (fun x => g (n * m + x)) n]

/-- A softmax-weighted average does not depend on the shift subtracted inside the exponentials. -/
theorem softmax_weighted {ι : Type*} [Fintype ι] (s b : ι → ℝ) (μ : ℝ) :
    ∑ j, (Real.exp (s j - μ) / ∑ j', Real.exp (s j' - μ)) * b j
      = (∑ j, Real.exp (s j) * b j) / ∑ j, Real.exp (s j) := by
  have hμ : Real.exp μ ≠ 0 := (Real.exp_pos μ).ne'
  have h1 : ∀ j, Real.exp (s j - μ) = Real.exp (s j) / Real.exp μ := fun j => Real.exp_sub _ _
  simp only [h1]
  have h2 : ∑ j', Real.exp (s j') / Real.exp μ = (∑ j', Real.exp (s j')) / Real.exp μ :=
    (Finset.sum_div Finset.univ (fun j' => Real.exp (s j')) (Real.exp μ)).symm
  rw [h2, Finset.sum_div Finset.univ (fun j => Real.exp (s j) * b j)]
  refine Finset.sum_congr rfl fun j _ => ?_
  rw [div_div_div_cancel_right₀ hμ, div_mul_eq_mul_div]

end Cert.LibRealSums

end
-- ==== Proof.Spec.lean ====
/-
  The gated message-passing layer, as mathematics over the extended reals.

  Nodes p < 50000 carry feature rows X[p, ·] of width 96; edges e < 800000 carry a weight a[e], a destination word and
  a source word. Edge e ENTERS node p when its destination word, read as a signed integer, is p (an edge whose word
  names no node enters none), and its SOURCE is the node its source word selects, clamped into range. Two arrangements
  of the aggregated message of node p at unit v:

    projected:  (Σ_u (Σ_{e enters p} a[e]·X[src e, u]) · Wn[u, v]) + (Σ_{e enters p} a[e]) · bn[v]
    messages:    Σ_{e enters p} a[e] · ((Σ_u X[src e, u]·Wn[u, v]) + bn[v])

  They are equal when X, a, Wn, bn are real-valued: distributivity and the exchange of two finite sums, which hold on
  the reals (and fail at the infinities of the extended reals, which is where the finiteness of the inputs is used).
  The layer's output at (p, v) is  agg·g + X[p, v]·(1 − g)  with the gate g the logistic function of
  (X[p,·]·Wgi[·,v] + bgi[v]) + (agg[p,·]·Wgn[·,v] + bgn[v]).
-/
import Idealize.ShloMosaic.PureOps.Ideal
import Idealize.ShloMosaic.Lib.ValueIdx
import proofs.«130235_j26680336842924_2_alg».proof.Proof.LibRowGatherScatter
import proofs.«130235_j26680336842924_2_alg».proof.Proof.LibRealSums

noncomputable section

open scoped BigOperators

namespace Cert.GatedLayer

open Idealize.ShloMosaic Idealize.ShloMosaic.ValueIdx Cert.RowGatherScatter

abbrev Mat (a b : Nat) := (⟨2, ![a, b]⟩ : Shape).Idx → EReal
abbrev Vect (a : Nat) := (⟨1, ![a]⟩ : Shape).Idx → EReal
/-- One 32-bit word per edge. -/
abbrev IdxCol := Fin 800000 → BitVec 32

/-- A source word as the programs normalise it before gathering: a negative word has 50000 added. -/
def wrapWord (c : BitVec 32) : BitVec 32 := Scalar.select (IntOp.cmpi .slt c 0#32) (IntOp.addi c 50000#32) c

/-- The edges entering node `p`: those whose destination word, read signed, is `p`. -/
def inEdges (ri : IdxCol) (p : Fin 50000) : Finset (Fin 800000) :=
  Finset.univ.filter fun e : Fin 800000 => (ri e).toInt = (p.val : Int)

/-- The source node of edge `e`: its (normalised) source word read signed and clamped into `[0, 49999]`. -/
def srcNode (ci : IdxCol) (e : Fin 800000) : Fin 50000 := clampRow 50000 (by decide) (ci e)

/-- One row of raw aggregated features projected by `Wn`, plus the row's total weight times the bias. -/
def projRow (rawrow : Fin 96 → EReal) (deg : EReal) (Wn : Fin 96 → Fin 96 → EReal) (bn : Fin 96 → EReal) (v : Fin 96) : EReal :=
  (∑ u : Fin 96, rawrow u * Wn u v) + deg * bn v

/-- The gate's argument for one node at unit `v`. -/
def gateArg (xrow aggrow : Fin 96 → EReal) (Wgi : Fin 96 → Fin 96 → EReal) (bgi : Fin 96 → EReal)
    (Wgn : Fin 96 → Fin 96 → EReal) (bgn : Fin 96 → EReal) (v : Fin 96) : EReal :=
  ((∑ k : Fin 96, xrow k * Wgi k v) + bgi v) + ((∑ k : Fin 96, aggrow k * Wgn k v) + bgn v)

/-- The gated combination for one node at unit `v`: `agg·g + x·(1 − g)`, `g` the logistic of the gate's argument. -/
def gatedAt (xrow aggrow : Fin 96 → EReal) (Wgi : Fin 96 → Fin 96 → EReal) (bgi : Fin 96 → EReal)
    (Wgn : Fin 96 → Fin 96 → EReal) (bgn : Fin 96 → EReal) (v : Fin 96) : EReal :=
  aggrow v * Ideal.logistic (gateArg xrow aggrow Wgi bgi Wgn bgn v)
    + xrow v * (Ideal.ofBits .f32 0x3F800000#32 - Ideal.logistic (gateArg xrow aggrow Wgi bgi Wgn bgn v))

/-- The aggregated message of node `p` at unit `v`, projected after the sum over edges. -/
def aggProjected (X : Mat 50000 96) (a : Vect 800000) (Wn : Mat 96 96) (bn : Vect 96) (ci ri : IdxCol)
    (p : Fin 50000) (v : Fin 96) : EReal :=
  projRow (fun u => ∑ e ∈ inEdges ri p, a (ix1 e) * X (ix2 (srcNode ci e) u)) (∑ e ∈ inEdges ri p, a (ix1 e))
    (fun u v => Wn (ix2 u v)) (fun v => bn (ix1 v)) v

/-- The aggregated message of node `p` at unit `v`, each edge's source row projected before the sum over edges. -/
def aggMessages (X : Mat 50000 96) (a : Vect 800000) (Wn : Mat 96 96) (bn : Vect 96) (ci ri : IdxCol)
    (p : Fin 50000) (v : Fin 96) : EReal :=
  ∑ e ∈ inEdges ri p, a (ix1 e) * ((∑ u : Fin 96, X (ix2 (srcNode ci e) u) * Wn (ix2 u v)) + bn (ix1 v))

/-- THE LAW: with `X`, `a`, `Wn`, `bn` real-valued the two arrangements agree. -/
theorem aggProjected_eq_aggMessages (X : Mat 50000 96) (a : Vect 800000) (Wn : Mat 96 96) (bn : Vect 96) (ci ri : IdxCol)
    (hX : ∀ i, ∃ r : ℝ, X i = (r : EReal)) (ha : ∀ i, ∃ r : ℝ, a i = (r : EReal))
    (hW : ∀ i, ∃ r : ℝ, Wn i = (r : EReal)) (hb : ∀ i, ∃ r : ℝ, bn i = (r : EReal)) (p : Fin 50000) (v : Fin 96) :
    aggProjected X a Wn bn ci ri p v = aggMessages X a Wn bn ci ri p v := by
  choose x hx using hX
  choose α hα using ha
  choose w hw using hW
  choose β hβ using hb
  unfold aggProjected aggMessages projRow
  simp only [hx, hα, hw, hβ, ← EReal.coe_mul, ← EReal.coe_add, ← Cert.LibRealSums.coe_sum]
  refine congrArg (fun r : ℝ => (r : EReal)) ?_
  have h1 : ∑ u : Fin 96, (∑ e ∈ inEdges ri p, α (ix1 e) * x (ix2 (srcNode ci e) u)) * w (ix2 u v)
      = ∑ e ∈ inEdges ri p, α (ix1 e) * ∑ u : Fin 96, x (ix2 (srcNode ci e) u) * w (ix2 u v) := by
    simp only [Finset.sum_mul, Finset.mul_sum]
    rw [Finset.sum_comm]
    exact Finset.sum_congr rfl fun e _ => Finset.sum_congr rfl fun u _ => mul_assoc _ _ _
  rw [h1, Finset.sum_mul, ← Finset.sum_add_distrib]
  exact Finset.sum_congr rfl fun e _ => (mul_add _ _ _).symm

/-- The layer's output array from the node features and an aggregated-message function. -/
def layerOut (X : Mat 50000 96) (agg : Fin 50000 → Fin 96 → EReal) (Wgi : Mat 96 96) (bgi : Vect 96)
    (Wgn : Mat 96 96) (bgn : Vect 96) : Mat 50000 96 := fun i =>
  gatedAt (fun k => X (ix2 (i 0) k)) (agg (i 0)) (fun k v => Wgi (ix2 k v)) (fun v => bgi (ix1 v))
    (fun k v => Wgn (ix2 k v)) (fun v => bgn (ix1 v)) (i 1)

end Cert.GatedLayer

end
-- ==== Proof.FiniteInputs.lean ====
/-
  Finite inputs are real-valued. The precondition tests every float input entrywise by `|x| < +∞`
  (the pattern `0x7F800000` is `+∞`), reduces each test by `and` over all axes to one bit, and joins
  the eight bits by `and`. Over the extended reals `|x| = max x (-x)` is `⊤` at both `⊥` and `⊤`, so a
  passed test leaves only the real numbers: when the precondition's value is 1, every entry of each
  of the first four arrays is (the coercion of) a real number.
-/
import proofs.«130235_j26680336842924_2_alg».proof.Pre_finite_inputs
import Idealize.ShloMosaic.PureOps.Ideal
import Idealize.ShloMosaic.Lib.ReduceAll
import Idealize.ShloMosaic.Lib.ValueIdx

namespace Cert.FiniteInputs

open Idealize.ShloMosaic Cert.Pre_finite_inputs

/-- The rank-0 shape has exactly one index (the empty tuple of coordinates). -/
instance subsingleton_scalarIdx : Subsingleton S_.Idx := ⟨fun a b => funext fun d => d.elim0⟩

/-- An extended real whose absolute value `max x (-x)` lies strictly below `⊤` is a real number:
    at `⊥` and at `⊤` the absolute value is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the comparison `|a| < +∞` (the pattern `0x7F800000`, broadcast from a scalar) being 1
    makes that entry of `a` a real number. -/
theorem real_of_entry {s : Shape} (bc : S_.BroadcastsInDim s (![] : Fin 0 → Fin s.rank))
    (a : FVec Ideal s .f32) (i : s.Idx)
    (h : cmpf .olt (Host.absf a) (broadcastInDim s ![] bc (constant (F := Ideal) S_ .f32 0x7F800000#32)) i = 1#1) :
    ∃ r : ℝ, a i = (r : EReal) := by
  refine real_of_abs_lt_top (a i) ?_
  -- entrywise the comparison is `max (a i) (-a i) < +∞` on the linear order of the extended reals
  have h' : Ideal.cmp .olt (max (a i) (-a i)) (Ideal.ofBits .f32 0x7F800000#32) = 1#1 := h
  have ht : Ideal.ofBits .f32 0x7F800000#32 = ⊤ := by simp [Ideal.ofBits, Ideal.ieee]
  rw [ht] at h'
  by_contra hn
  simp [Ideal.cmp, hn] at h'

/-- When the finiteness precondition evaluates to 1, every entry of each of its first four float
    arguments is a real number. The `and` chain is nested to the left, so the bits of the first four
    arguments are the innermost ones; each bit is an `and`-reduction over all axes, which being 1 gives
    the entrywise test at every index. -/
theorem reals_of_pre [Facts]
    (a0 : FVec Ideal S50000x96 .f32) (a1 : FVec Ideal S800000 .f32)
    (a2 : FVec Ideal S96x96 .f32) (a3 : FVec Ideal S96 .f32)
    (a4 : FVec Ideal S96x96 .f32) (a5 : FVec Ideal S96 .f32)
    (a6 : FVec Ideal S96x96 .f32) (a7 : FVec Ideal S96 .f32)
    (a8 a9 : IVec S800000 32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [fn, fn_part1, fn_part2, andi] at h0
  -- peel the four outer conjuncts (arguments 7, 6, 5, 4), then keep the four inner ones
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_entry _ a0 i (Host.reduce_andi_all _ _ _ _ _ e0 i),
    fun i => real_of_entry _ a1 i (Host.reduce_andi_all _ _ _ _ _ e1 i),
    fun i => real_of_entry _ a2 i (Host.reduce_andi_all _ _ _ _ _ e2 i),
    fun i => real_of_entry _ a3 i (Host.reduce_andi_all _ _ _ _ _ e3 i)⟩

end Cert.FiniteInputs
-- ==== Proof.LibKeepdims.lean ====
/-
  Layout operations read at an index, for the shapes a kept-dimension reduction and an outer product put around a value:
  a vector cast to a column (`[a] → [a, 1]`), a column laid along every lane (`[a, 1] → [a, b]`), a matrix given a
  trailing unit axis (`[a, b] → [a, b, 1]`) and laid along a new last axis (`[a, b, 1] → [a, b, c]`), a vector given
  two leading unit axes (`[c] → [1, 1, c]`) and laid along both (`[1, 1, c] → [a, b, c]`). Each says which ONE
  element of the operand the result's element at given coordinates is. Stated for any extents and any element type.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` laid along `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array given a trailing unit axis reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array laid along a last axis of extent `c` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[c]` array given two leading unit axes reads, at `(u, v, k)`, the operand at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- A `[1, 1, c]` array laid along two leading axes reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.Keepdims
-- ==== Proof.KernelBody.lean ====
/-
  What the kernel's body leaves in one output block, read at an index.

  At a grid point the body holds a block of 2000 node rows: the features `x0`, the raw aggregated messages `x1`, the
  total edge weight `x2` (one column), and the whole weights and biases. At row `r` and unit `v` it stores the gated
  combination of the feature row `x0[r, ·]` and of the projected message row
  `Σ_u x1[r, u]·Wn[u, v] + x2[r, 0]·bn[0, v]`: three matrix products into a zero accumulator (each a plain sum over
  the 96 contracted units), a column and two rows broadcast over the block, and pointwise arithmetic. Changes of float
  format are the identity on the extended reals.
-/
import proofs.«130235_j26680336842924_2_alg».proof.Proof.Gen.KernelIdeal.Frame
import proofs.«130235_j26680336842924_2_alg».proof.Proof.Spec
import proofs.«130235_j26680336842924_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelBody

open Cert.KernelIdeal Cert.KernelIdeal.Gen Idealize.ShloMosaic Idealize.ShloMosaic.ValueIdx Cert.GatedLayer

/-! ## The matrix product of a block with a weight matrix -/

theorem lhs_row (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
theorem lhs_col (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
theorem rhs_row (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
theorem rhs_col (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The block's product with a 96 × 96 matrix, into the zero accumulator, at `(r, v)`: the sum over the contracted unit
    `k` of `lhs[r, k] · rhs[k, v]`. -/
theorem matmul_at {φ₁ φ₂ : FTy} (lhs : FVec Ideal S2000x96 φ₁) (rhs : FVec Ideal S96x96 φ₂) (r : Fin 2000) (v : Fin 96) :
    matmul dot_S2000x96_S96x96_S2000x96_1_0_0_1_n_n none lhs rhs (constant (F := Ideal) S2000x96 .f32 0x00000000#32) (ix2 r v)
      = ∑ k : Fin 96, lhs (ix2 r k) * rhs (ix2 k v) := by
  refine (Ideal.matmul_constant_zero_apply dot_S2000x96_S96x96_S2000x96_1_0_0_1_n_n none lhs rhs (ix2 r v)).trans ?_
  rw [← Equiv.sum_comp (contrEquiv1 dot_S2000x96_S96x96_S2000x96_1_0_0_1_n_n 96 rfl rfl).symm]
  refine Finset.sum_congr rfl fun k _ => ?_
  have hk := contrEquiv1_symm_val dot_S2000x96_S96x96_S2000x96_1_0_0_1_n_n 96 rfl rfl k
  have el : dot_S2000x96_S96x96_S2000x96_1_0_0_1_n_n.lhsIdx (ix2 r v) ((contrEquiv1 dot_S2000x96_S96x96_S2000x96_1_0_0_1_n_n 96 rfl rfl).symm k) = ix2 r k := funext fun a => Fin.ext (by
    match a with
    | ⟨0, _⟩ => exact lhs_row _ _
    | ⟨1, _⟩ => exact (lhs_col _ _).trans hk)
  have er : dot_S2000x96_S96x96_S2000x96_1_0_0_1_n_n.rhsIdx (ix2 r v) ((contrEquiv1 dot_S2000x96_S96x96_S2000x96_1_0_0_1_n_n 96 rfl rfl).symm k) = ix2 k v := funext fun a => Fin.ext (by
    match a with
    | ⟨0, _⟩ => exact (rhs_row _ _).trans hk
    | ⟨1, _⟩ => exact rhs_col _ _)
  rw [el, er]

/-! ## The payloads at an index -/

/-- The projected message row: `x1[r, ·]·Wn[·, v] + x2[r, 0]·bn[0, v]`. -/
theorem pay2_apply (v1 : Vec Ideal S2000x96 .f32) (v3 : Vec Ideal S2000x1 .f32) (v7 : Vec Ideal S96x96 .f32) (v14 : Vec Ideal S1x96 .f32)
    (r : Fin 2000) (v : Fin 96) :
    k0_pay2 (F := Ideal) v1 v3 v7 v14 (ix2 r v)
      = projRow (fun u => v1 (ix2 r u)) (v3 (ix2 r (0 : Fin 1))) (fun u v => v7 (ix2 u v)) (fun v => v14 (ix2 (0 : Fin 1) v)) v := by
  unfold k0_pay2 projRow
  simp only [shapeCast_self]
  rw [addf_apply, matmul_at, mulf_apply, Keepdims.broadcastTo_a1_ab_apply, broadcastTo_1b_ab_apply]
  rfl

/-- The gate: the logistic function of `(x0[r, ·]·Wgi[·, v] + bgi[0, v]) + (agg[r, ·]·Wgn[·, v] + bgn[0, v])`, `agg` the projected
    message block. -/
theorem pay3_apply (v0 v1 : Vec Ideal S2000x96 .f32) (v3 : Vec Ideal S2000x1 .f32) (v7 v9 v11 : Vec Ideal S96x96 .f32)
    (v14 v21 v27 : Vec Ideal S1x96 .f32) (r : Fin 2000) (v : Fin 96) :
    k0_pay3 (F := Ideal) v0 v1 v3 v7 v9 v11 v14 v21 v27 (ix2 r v)
      = Ideal.logistic (gateArg (fun k => v0 (ix2 r k))
          (projRow (fun u => v1 (ix2 r u)) (v3 (ix2 r (0 : Fin 1))) (fun u v => v7 (ix2 u v)) (fun v => v14 (ix2 (0 : Fin 1) v)))
          (fun k v => v9 (ix2 k v)) (fun v => v21 (ix2 (0 : Fin 1) v)) (fun k v => v11 (ix2 k v)) (fun v => v27 (ix2 (0 : Fin 1) v)) v) := by
  unfold k0_pay3 gateArg
  simp only [shapeCast_self]
  show Ideal.logistic _ = _
  refine congrArg Ideal.logistic ?_
  rw [addf_apply, addf_apply, addf_apply, matmul_at, matmul_at, broadcastTo_1b_ab_apply, broadcastTo_1b_ab_apply]
  simp only [truncf_apply, pay2_apply]

/-- What the body stores at `(r, v)`: the gated combination of the projected message row and the feature row. -/
theorem stored_apply (v0 v1 : Vec Ideal S2000x96 .f32) (v3 : Vec Ideal S2000x1 .f32) (v7 v9 v11 : Vec Ideal S96x96 .f32)
    (v14 v21 v27 : Vec Ideal S1x96 .f32) (r : Fin 2000) (v : Fin 96) :
    k0_pay1 (F := Ideal) (k0_pay4 v0 v1 v3 v7 v9 v11 v14 v21 v27) (k0_pay5 v0 v1 v3 v7 v9 v11 v14 v21 v27) (ix2 r v)
      = gatedAt (fun k => v0 (ix2 r k))
          (projRow (fun u => v1 (ix2 r u)) (v3 (ix2 r (0 : Fin 1))) (fun u v => v7 (ix2 u v)) (fun v => v14 (ix2 (0 : Fin 1) v)))
          (fun k v => v9 (ix2 k v)) (fun v => v21 (ix2 (0 : Fin 1) v)) (fun k v => v11 (ix2 k v)) (fun v => v27 (ix2 (0 : Fin 1) v)) v := by
  unfold k0_pay1 k0_pay4 k0_pay5 gatedAt
  rw [addf_apply, mulf_apply, mulf_apply, subf_apply, pay2_apply, pay3_apply]
  rfl

theorem zero_offsets : (![0, 0] : Fin 2 → Nat) = fun _ => 0 := funext fun a => by fin_cases a <;> rfl

/-- The output block after the body, at `(r, v)`, from the input blocks. -/
theorem out_apply (x0 x1 : Vec Ideal S2000x96 .f32) (x2 : Vec Ideal S2000x1 .f32) (x3 : Vec Ideal S96x96 .f32) (x4 : Vec Ideal S1x96 .f32)
    (x5 : Vec Ideal S96x96 .f32) (x6 : Vec Ideal S1x96 .f32) (x7 : Vec Ideal S96x96 .f32) (x8 : Vec Ideal S1x96 .f32) (r : Fin 2000) (v : Fin 96) :
    out0_9 (F := Ideal) x0 x1 x2 x3 x4 x5 x6 x7 x8 (ix2 r v)
      = gatedAt (fun k => x0 (ix2 r k))
          (projRow (fun u => x1 (ix2 r u)) (x2 (ix2 r (0 : Fin 1))) (fun u v => x3 (ix2 u v)) (fun v => x4 (ix2 (0 : Fin 1) v)))
          (fun k v => x5 (ix2 k v)) (fun v => x6 (ix2 (0 : Fin 1) v)) (fun k v => x7 (ix2 k v)) (fun v => x8 (ix2 (0 : Fin 1) v)) v := by
  unfold out0_9
  rw [View.canon_unit_zero zero_offsets]
  simp only [View.ld_unit_zero (S := S2000x96) zero_offsets, View.ld_unit_zero (S := S2000x1) zero_offsets,
    View.ld_unit_zero (S := S96x96) zero_offsets, View.ld_unit_zero (S := S1x96) zero_offsets]
  exact stored_apply x0 x1 x2 x3 x5 x7 x4 x6 x8 r v

/-! ## The whole output array from the whole arrays the region finds -/

/-- The output at node `p` and unit `v` from the whole arrays: the features `X`, the raw aggregated messages `raw`, the
    total edge weights `deg` (one column), the weights, and the biases as single rows. -/
def nodeOut (X raw : Mat 50000 96) (deg : Mat 50000 1) (Wn : Mat 96 96) (bn2 : Mat 1 96) (Wgi : Mat 96 96) (bgi2 : Mat 1 96)
    (Wgn : Mat 96 96) (bgn2 : Mat 1 96) (p : Fin 50000) (v : Fin 96) : EReal :=
  gatedAt (fun k => X (ix2 p k))
    (projRow (fun u => raw (ix2 p u)) (deg (ix2 p (0 : Fin 1))) (fun u v => Wn (ix2 u v)) (fun v => bn2 (ix2 (0 : Fin 1) v)))
    (fun k v => Wgi (ix2 k v)) (fun v => bgi2 (ix2 (0 : Fin 1) v)) (fun k v => Wgn (ix2 k v)) (fun v => bgn2 (ix2 (0 : Fin 1) v)) v

/-- The same as one array. -/
def arrayOut (X raw : Mat 50000 96) (deg : Mat 50000 1) (Wn : Mat 96 96) (bn2 : Mat 1 96) (Wgi : Mat 96 96) (bgi2 : Mat 1 96)
    (Wgn : Mat 96 96) (bgn2 : Mat 1 96) : Mat 50000 96 := fun i => nodeOut X raw deg Wn bn2 Wgi bgi2 Wgn bgn2 (i 0) (i 1)

/-- When the input blocks are rows of the whole arrays — block row `r` being node `p` — the output block at `(r, v)` is the
    output of node `p` at unit `v`. -/
theorem out_of_blocks (A0 A1 : Mat 50000 96) (A2 : Mat 50000 1) (A3 : Mat 96 96) (A4 : Mat 1 96) (A5 : Mat 96 96) (A6 : Mat 1 96)
    (A7 : Mat 96 96) (A8 : Mat 1 96)
    (x0 x1 : Vec Ideal S2000x96 .f32) (x2 : Vec Ideal S2000x1 .f32) (x3 : Vec Ideal S96x96 .f32) (x4 : Vec Ideal S1x96 .f32)
    (x5 : Vec Ideal S96x96 .f32) (x6 : Vec Ideal S1x96 .f32) (x7 : Vec Ideal S96x96 .f32) (x8 : Vec Ideal S1x96 .f32)
    (r : Fin 2000) (p : Fin 50000) (v : Fin 96)
    (h0 : ∀ k : Fin 96, x0 (ix2 r k) = A0 (ix2 p k)) (h1 : ∀ k : Fin 96, x1 (ix2 r k) = A1 (ix2 p k))
    (h2 : x2 (ix2 r (0 : Fin 1)) = A2 (ix2 p (0 : Fin 1)))
    (h3 : ∀ u v : Fin 96, x3 (ix2 u v) = A3 (ix2 u v)) (h4 : ∀ v : Fin 96, x4 (ix2 (0 : Fin 1) v) = A4 (ix2 (0 : Fin 1) v))
    (h5 : ∀ u v : Fin 96, x5 (ix2 u v) = A5 (ix2 u v)) (h6 : ∀ v : Fin 96, x6 (ix2 (0 : Fin 1) v) = A6 (ix2 (0 : Fin 1) v))
    (h7 : ∀ u v : Fin 96, x7 (ix2 u v) = A7 (ix2 u v)) (h8 : ∀ v : Fin 96, x8 (ix2 (0 : Fin 1) v) = A8 (ix2 (0 : Fin 1) v)) :
    out0_9 (F := Ideal) x0 x1 x2 x3 x4 x5 x6 x7 x8 (ix2 r v) = nodeOut A0 A1 A2 A3 A4 A5 A6 A7 A8 p v := by
  rw [out_apply]
  unfold nodeOut
  simp only [h0, h1, h2, h3, h4, h5, h6, h7, h8]

end Cert.KernelBody

end
-- ==== Proof.KernelBlocks.lean ====
/-
  The input blocks at a grid point, as parts of the arrays the region finds.

  The grid has 25 points; at point `t` the windows of the features, the raw aggregated messages and the total weights
  hold block `(t, 0)` — rows `2000·t … 2000·t + 1999` — of their arrays, and the six weight and bias windows hold their
  whole arrays (block `(0, 0)` of an array of one block).
-/
import proofs.«130235_j26680336842924_2_alg».proof.Proof.Gen.KernelIdeal.Value
import Idealize.ShloMosaic.Lib.Pipeline.Value
import Idealize.ShloMosaic.Lib.ValueIdx

noncomputable section

namespace Cert.KernelBlocks

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The block index maps, decided over the 25 grid points: four windows move with the point along the rows, six stay at
    the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## The input blocks as rows of the arrays the region finds -/

theorem features_block (c : Dev nD) (t : Fin cfg0.N) (r : Fin 2000) (k : Fin 96) (p : Fin 50000) (hp : p.val = t.val * 2000 + r.val) :
    (iblk m c 0 t : Vec Ideal S2000x96 .f32) (ix2 r k) = (V m c main_arg0 : S50000x96.Idx → EReal) (ix2 p k) := by
  obtain ⟨⟨e0, e1⟩, -⟩ := idx_facts t
  unfold iblk
  rw [View.read_apply]
  show (V m c main_arg0 : S50000x96.Idx → EReal) _ = _
  refine congrArg (V m c main_arg0 : S50000x96.Idx → EReal) (funext fun a => Fin.ext ?_)
  match a with
  | ⟨0, _⟩ => show win0_0.index t (0 : Fin 2) * 2000 + 1 * r.val = p.val; rw [e0, hp]; omega
  | ⟨1, _⟩ => show win0_0.index t (1 : Fin 2) * 96 + 1 * k.val = k.val; rw [e1]; omega

/-- Block `(t, 0)` of ANY array of the raw messages' shape, read through the second window: rows `2000·t …`. -/
theorem rows_read1 (c : Dev nD) (t : Fin cfg0.N) (A : Buf (Elt Ideal) ((cfg0.win 1).arr.view.loc (c.tc : Thread nD τ)))
    (r : Fin 2000) (k : Fin 96) (p : Fin 50000) (hp : p.val = t.val * 2000 + r.val) :
    (((cfg0.win 1).blk t).view.read (Elt Ideal) A : Vec Ideal S2000x96 .f32) (ix2 r k) = (A : S50000x96.Idx → EReal) (ix2 p k) := by
  obtain ⟨-, ⟨e0, e1⟩, -⟩ := idx_facts t
  rw [View.read_apply]
  refine congrArg (A : S50000x96.Idx → EReal) (funext fun a => Fin.ext ?_)
  match a with
  | ⟨0, _⟩ => show win0_1.index t (0 : Fin 2) * 2000 + 1 * r.val = p.val; rw [e0, hp]; omega
  | ⟨1, _⟩ => show win0_1.index t (1 : Fin 2) * 96 + 1 * k.val = k.val; rw [e1]; omega

theorem raw_block (c : Dev nD) (t : Fin cfg0.N) (r : Fin 2000) (k : Fin 96) (p : Fin 50000) (hp : p.val = t.val * 2000 + r.val) :
    (iblk m c 1 t : Vec Ideal S2000x96 .f32) (ix2 r k) = (V m c (Pipeline.arrRef spec0 1) : S50000x96.Idx → EReal) (ix2 p k) :=
  rows_read1 c t (V m c (Pipeline.arrRef spec0 1)) r k p hp

/-- Block `(t, 0)` of ANY one-column array of the total weights' shape, read through the third window. -/
theorem rows_read2 (c : Dev nD) (t : Fin cfg0.N) (A : Buf (Elt Ideal) ((cfg0.win 2).arr.view.loc (c.tc : Thread nD τ)))
    (r : Fin 2000) (p : Fin 50000) (hp : p.val = t.val * 2000 + r.val) :
    (((cfg0.win 2).blk t).view.read (Elt Ideal) A : Vec Ideal S2000x1 .f32) (ix2 r (0 : Fin 1)) = (A : S50000x1.Idx → EReal) (ix2 p (0 : Fin 1)) := by
  obtain ⟨-, -, ⟨e0, e1⟩, -⟩ := idx_facts t
  rw [View.read_apply]
  refine congrArg (A : S50000x1.Idx → EReal) (funext fun a => Fin.ext ?_)
  match a with
  | ⟨0, _⟩ => show win0_2.index t (0 : Fin 2) * 2000 + 1 * r.val = p.val; rw [e0, hp]; omega
  | ⟨1, _⟩ => show win0_2.index t (1 : Fin 2) * 1 + 1 * 0 = 0; rw [e1]

theorem deg_block (c : Dev nD) (t : Fin cfg0.N) (r : Fin 2000) (p : Fin 50000) (hp : p.val = t.val * 2000 + r.val) :
    (iblk m c 2 t : Vec Ideal S2000x1 .f32) (ix2 r (0 : Fin 1)) = (V m c (Pipeline.arrRef spec0 2) : S50000x1.Idx → EReal) (ix2 p (0 : Fin 1)) :=
  rows_read2 c t (V m c (Pipeline.arrRef spec0 2)) r p hp

theorem wn_block (c : Dev nD) (t : Fin cfg0.N) (u v : Fin 96) :
    (iblk m c 3 t : Vec Ideal S96x96 .f32) (ix2 u v) = (V m c main_arg2 : S96x96.Idx → EReal) (ix2 u v) := by
  obtain ⟨-, -, -, ⟨e0, e1⟩, -⟩ := idx_facts t
  unfold iblk
  rw [View.read_apply]
  show (V m c main_arg2 : S96x96.Idx → EReal) _ = _
  refine congrArg (V m c main_arg2 : S96x96.Idx → EReal) (funext fun a => Fin.ext ?_)
  match a with
  | ⟨0, _⟩ => show win0_3.index t (0 : Fin 2) * 96 + 1 * u.val = u.val; rw [e0]; omega
  | ⟨1, _⟩ => show win0_3.index t (1 : Fin 2) * 96 + 1 * v.val = v.val; rw [e1]; omega

theorem bn_block (c : Dev nD) (t : Fin cfg0.N) (v : Fin 96) :
    (iblk m c 4 t : Vec Ideal S1x96 .f32) (ix2 (0 : Fin 1) v) = (V m c main_v0 : S1x96.Idx → EReal) (ix2 (0 : Fin 1) v) := by
  obtain ⟨-, -, -, -, ⟨e0, e1⟩, -⟩ := idx_facts t
  unfold iblk
  rw [View.read_apply]
  show (V m c main_v0 : S1x96.Idx → EReal) _ = _
  refine congrArg (V m c main_v0 : S1x96.Idx → EReal) (funext fun a => Fin.ext ?_)
  match a with
  | ⟨0, _⟩ => show win0_4.index t (0 : Fin 2) * 1 + 1 * 0 = 0; rw [e0]
  | ⟨1, _⟩ => show win0_4.index t (1 : Fin 2) * 96 + 1 * v.val = v.val; rw [e1]; omega

theorem wgi_block (c : Dev nD) (t : Fin cfg0.N) (u v : Fin 96) :
    (iblk m c 5 t : Vec Ideal S96x96 .f32) (ix2 u v) = (V m c main_arg4 : S96x96.Idx → EReal) (ix2 u v) := by
  obtain ⟨-, -, -, -, -, ⟨e0, e1⟩, -⟩ := idx_facts t
  unfold iblk
  rw [View.read_apply]
  show (V m c main_arg4 : S96x96.Idx → EReal) _ = _
  refine congrArg (V m c main_arg4 : S96x96.Idx → EReal) (funext fun a => Fin.ext ?_)
  match a with
  | ⟨0, _⟩ => show win0_5.index t (0 : Fin 2) * 96 + 1 * u.val = u.val; rw [e0]; omega
  | ⟨1, _⟩ => show win0_5.index t (1 : Fin 2) * 96 + 1 * v.val = v.val; rw [e1]; omega

theorem bgi_block (c : Dev nD) (t : Fin cfg0.N) (v : Fin 96) :
    (iblk m c 6 t : Vec Ideal S1x96 .f32) (ix2 (0 : Fin 1) v) = (V m c main_v1 : S1x96.Idx → EReal) (ix2 (0 : Fin 1) v) := by
  obtain ⟨-, -, -, -, -, -, ⟨e0, e1⟩, -⟩ := idx_facts t
  unfold iblk
  rw [View.read_apply]
  show (V m c main_v1 : S1x96.Idx → EReal) _ = _
  refine congrArg (V m c main_v1 : S1x96.Idx → EReal) (funext fun a => Fin.ext ?_)
  match a with
  | ⟨0, _⟩ => show win0_6.index t (0 : Fin 2) * 1 + 1 * 0 = 0; rw [e0]
  | ⟨1, _⟩ => show win0_6.index t (1 : Fin 2) * 96 + 1 * v.val = v.val; rw [e1]; omega

theorem wgn_block (c : Dev nD) (t : Fin cfg0.N) (u v : Fin 96) :
    (iblk m c 7 t : Vec Ideal S96x96 .f32) (ix2 u v) = (V m c main_arg6 : S96x96.Idx → EReal) (ix2 u v) := by
  obtain ⟨-, -, -, -, -, -, -, ⟨e0, e1⟩, -⟩ := idx_facts t
  unfold iblk
  rw [View.read_apply]
  show (V m c main_arg6 : S96x96.Idx → EReal) _ = _
  refine congrArg (V m c main_arg6 : S96x96.Idx → EReal) (funext fun a => Fin.ext ?_)
  match a with
  | ⟨0, _⟩ => show win0_7.index t (0 : Fin 2) * 96 + 1 * u.val = u.val; rw [e0]; omega
  | ⟨1, _⟩ => show win0_7.index t (1 : Fin 2) * 96 + 1 * v.val = v.val; rw [e1]; omega

theorem bgn_block (c : Dev nD) (t : Fin cfg0.N) (v : Fin 96) :
    (iblk m c 8 t : Vec Ideal S1x96 .f32) (ix2 (0 : Fin 1) v) = (V m c main_v2 : S1x96.Idx → EReal) (ix2 (0 : Fin 1) v) := by
  obtain ⟨-, -, -, -, -, -, -, -, ⟨e0, e1⟩, -⟩ := idx_facts t
  unfold iblk
  rw [View.read_apply]
  show (V m c main_v2 : S1x96.Idx → EReal) _ = _
  refine congrArg (V m c main_v2 : S1x96.Idx → EReal) (funext fun a => Fin.ext ?_)
  match a with
  | ⟨0, _⟩ => show win0_8.index t (0 : Fin 2) * 1 + 1 * 0 = 0; rw [e0]
  | ⟨1, _⟩ => show win0_8.index t (1 : Fin 2) * 96 + 1 * v.val = v.val; rw [e1]; omega

end Cert.KernelBlocks

end
-- ==== Proof.KernelValue.lean ====
/-
  From blocks to the array: what the kernel's result array holds after the run.

  The grid has 25 points; at point `t` the windows of the features, the raw aggregated messages, the total weights and
  the output all hold block `(t, 0)` — rows `2000·t … 2000·t + 1999` — of their arrays, and the six weight and bias
  windows hold their whole arrays. So point `t` writes back rows `2000·t …` of ONE whole-array function (the output of
  every node from the whole arrays), and the 25 blocks cover the 50000 rows: the result array ends holding that
  function.
-/
import proofs.«130235_j26680336842924_2_alg».proof.Proof.Gen.KernelIdeal.Value
import proofs.«130235_j26680336842924_2_alg».proof.Proof.KernelBody
import proofs.«130235_j26680336842924_2_alg».proof.Proof.KernelBlocks
import Idealize.ShloMosaic.Lib.Pipeline.Value
import Idealize.ShloMosaic.Lib.ValueIdx

noncomputable section

namespace Cert.KernelValue

open Cert.KernelIdeal Cert.KernelIdeal.Gen Cert.KernelIdeal.Value Idealize.ShloMosaic Idealize.ShloMosaic.TcCoe Idealize.SL.Sem
  Idealize.ShloMosaic.ValueIdx Cert.GatedLayer Cert.KernelBody Cert.KernelBlocks
open Idealize.ShloMosaic.Pipeline (Dat)

variable (m : (ℓ : Loc nD τ sig) → Buf (Elt Ideal) ℓ) (ρ : Dev nD → PrngReg)

/-! ## What a point writes back -/

/-- The whole-array function: the output of every node from the arrays the region finds. -/
def regionOut (c : Dev nD) : S50000x96.Idx → EReal :=
  arrayOut (V m c main_arg0) (V m c (Pipeline.arrRef spec0 1)) (V m c (Pipeline.arrRef spec0 2)) (V m c main_arg2) (V m c main_v0) (V m c main_arg4)
    (V m c main_v1) (V m c main_arg6) (V m c main_v2)

/-- Point `t`'s output block at `(r, v)` is the whole-array function at row `2000·t + r`. -/
theorem point_out (c : Dev nD) (t : Fin cfg0.N) (j : S2000x96.Idx) :
    out0_9 (F := Ideal) (iblk m c 0 t) (iblk m c 1 t) (iblk m c 2 t) (iblk m c 3 t) (iblk m c 4 t) (iblk m c 5 t) (iblk m c 6 t)
        (iblk m c 7 t) (iblk m c 8 t) j
      = regionOut m c (((cfg0.win 9).blk t).view.emb j) := by
  obtain ⟨r, v, rfl⟩ : ∃ (r : Fin 2000) (v : Fin 96), j = ix2 r v := ⟨j 0, j 1, eq_ix2 j⟩
  obtain ⟨-, -, -, -, -, -, -, -, -, e0, e1⟩ := idx_facts t
  have hN : cfg0.N = 25 := N_0
  have ht : t.val < 25 := hN ▸ t.isLt
  have hr : r.val < 2000 := r.isLt
  have hp : t.val * 2000 + r.val < 50000 := by omega
  have h0 : (((cfg0.win 9).blk t).view.emb (ix2 r v)) (0 : Fin 2) = (⟨t.val * 2000 + r.val, hp⟩ : Fin 50000) :=
    Fin.ext (by show win0_9.index t (0 : Fin 2) * 2000 + 1 * r.val = t.val * 2000 + r.val; rw [e0]; omega)
  have h1 : (((cfg0.win 9).blk t).view.emb (ix2 r v)) (1 : Fin 2) = v :=
    Fin.ext (by show win0_9.index t (1 : Fin 2) * 96 + 1 * v.val = v.val; rw [e1]; omega)
  refine (out_of_blocks (V m c main_arg0) (V m c (Pipeline.arrRef spec0 1)) (V m c (Pipeline.arrRef spec0 2)) (V m c main_arg2) (V m c main_v0) (V m c main_arg4)
    (V m c main_v1) (V m c main_arg6) (V m c main_v2)
    (iblk m c 0 t) (iblk m c 1 t) (iblk m c 2 t) (iblk m c 3 t) (iblk m c 4 t) (iblk m c 5 t) (iblk m c 6 t) (iblk m c 7 t) (iblk m c 8 t)
    r ⟨t.val * 2000 + r.val, hp⟩ v
    (fun k => features_block m c t r k ⟨t.val * 2000 + r.val, hp⟩ rfl) (fun k => raw_block m c t r k ⟨t.val * 2000 + r.val, hp⟩ rfl)
    (deg_block m c t r ⟨t.val * 2000 + r.val, hp⟩ rfl)
    (fun u v => wn_block m c t u v) (fun v => bn_block m c t v) (fun u v => wgi_block m c t u v) (fun v => bgi_block m c t v)
    (fun u v => wgn_block m c t u v) (fun v => bgn_block m c t v)).trans ?_
  unfold regionOut arrayOut
  rw [h0, h1]

/-- WHAT POINT `t` WRITES BACK is block `t` of the whole-array function. -/
theorem flushed_eq (c : Dev nD) (t : Fin cfg0.N) :
    (dats m 0 c).flushed 9 t = ((cfg0.win 9).blk t).view.read (Elt Ideal) (regionOut m c) := by
  refine (flushed9 m c t).trans ?_
  have hpt := point_out m c t
  generalize regionOut m c = G at hpt ⊢
  generalize out0_9 (F := Ideal) (iblk m c 0 t) (iblk m c 1 t) (iblk m c 2 t) (iblk m c 3 t) (iblk m c 4 t) (iblk m c 5 t)
    (iblk m c 6 t) (iblk m c 7 t) (iblk m c 8 t) = X at hpt ⊢
  funext j
  rw [View.read_apply]
  have hcut : (cfg0.win 9).cut (grid0.coords t) X j = X j := rfl
  exact eq_of_heq ((heq_of_eq (hcut.trans (hpt j))).trans (cast_heq _ _).symm)

/-- An index of the array is in point `t`'s block iff each coordinate is in the block's range on its axis. -/
theorem mem_blk (t : Fin cfg0.N) (i : S50000x96.Idx) :
    i ∈ ((cfg0.win 9).blk t).view.set ↔ ∀ a : Fin 2, win0_9.index t a * S2000x96.size a ≤ (i a).val ∧ (i a).val < win0_9.index t a * S2000x96.size a + S2000x96.size a := by
  show i ∈ ((View.whole main_v22).slice (win0_9.rect t)).set ↔ _
  rw [View.set_slice_whole, Rect.mem_set_unit]
  exact Iff.rfl

/-- Every block index along the rows is some point's. -/
theorem idx_onto : ∀ q : Fin 25, ∃ t : Fin cfg0.N, win0_9.index t = ![q.val, 0] :=
  (by decide +kernel : ∀ q : Fin 25, ∃ t : Fin grid0.N, win0_9.index t = ![q.val, 0])

/-- The 25 blocks cover the array: row `i` lies in the block of point `i / 2000`. -/
theorem covered (i : S50000x96.Idx) : ∃ t : Fin cfg0.N, (cfg0.win 9).flush t = true ∧ i ∈ ((cfg0.win 9).blk t).view.set := by
  have hi0 : (i 0).val < 50000 := (i 0).isLt
  have hi1 : (i 1).val < 96 := (i 1).isLt
  obtain ⟨t, ht⟩ := idx_onto ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 96 ≤ (i 1).val ∧ (i 1).val < win0_9.index t (1 : Fin 2) * 96 + 96; omega

/-- THE ARRAY after the run is the whole-array function. -/
theorem final (c : Dev nD) : (dats m 0 c).arrAt 9 cfg0.N = regionOut m c :=
  (dats m 0 c).arrAt_eq_of_cover 9 (regionOut m c) (fun t _ => flushed_eq m c t) covered

end Cert.KernelValue

end
-- ==== Proof.LibVecScatter.lean ====
/-
  Scatter-adding the elements of a vector into a vector at an index column, read at an index.

  A scatter-add of `upd : [E]` into `x : [N]` at an index column `idx : [E, 1]` adds, to element `p`, the elements
  `upd[e]` of exactly those positions `e` whose index, read as a signed integer and NOT clamped, is `p`; a position
  whose index falls outside `[0, N)` is dropped. So a segment sum of a vector is a sum over the filter
  `{e | idx[e, 0] = p}`. Also: a sum over the indices of a rank-1 shape is the sum over its one coordinate.
-/
import Idealize.ShloMosaic.PureOps.Ideal
import Idealize.ShloMosaic.Lib.ValueIdx

noncomputable section

open scoped BigOperators

namespace Cert.VecScatter

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `x.at[idx].add(upd)` for `x : [N]`, `idx : [E, 1]`, `upd : [E]`: the update has no window
    axis, the operand's one axis is the inserted axis the index names. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update element `e` starts at the index `idx[e, 0]`, read signed. -/
theorem vecScatter_start0 : (vecScatterDims N E wf).start (ix1 e) idx 0 = (idx (ix2 e (0 : Fin 1))).toInt := by
  unfold ScatterDims.start
  rw [dif_pos (show (0 : Fin 1) ∈ ([0] : List (Fin 1)) from List.mem_singleton.mpr rfl)]
  have hsi : (vecScatterDims N E wf).siIdx (ix1 e) ⟨List.idxOf (0 : Fin 1) ([0] : List (Fin 1)),
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's axis is inserted: no window coordinate. -/
theorem vecScatter_window0 : (vecScatterDims N E wf).window (ix1 e) 0 = 0 := by
  have h : ¬ (0 : Fin 1) ∈ (vecScatterDims N E wf).sKept :=
    (show ¬ (0 : Fin 1) ∈ (List.finRange 1).filter (· ∉ ([0] : List (Fin 1))) by decide)
  unfold ScatterDims.window
  rw [dif_neg h]

/-- UPDATE ELEMENT `e` LANDS ON `p` exactly when its index, read signed, is `p`. -/
theorem vecScatter_resultIdx?_iff (p : Fin N) :
    (vecScatterDims N E wf).resultIdx? (ix1 e) idx = some (ix1 p) ↔ (idx (ix2 e (0 : Fin 1))).toInt = (p.val : Int) := by
  have s0 := vecScatter_start0 wf idx e
  have w0 := vecScatter_window0 wf e
  have hp := p.isLt
  unfold ScatterDims.resultIdx?
  constructor
  · intro h
    split at h
    · rename_i hin
      have hf := Option.some.inj h
      have h0 := congrArg (fun f => (f 0).val) hf
      simp only at h0
      have hin0 := hin 0
      rw [s0, w0] at h0 hin0
      have h0' : ((idx (ix2 e (0 : Fin 1))).toInt + ((0 : Nat) : Int)).toNat = p.val := h0
      have hin0' : 0 ≤ (idx (ix2 e (0 : Fin 1))).toInt + ((0 : Nat) : Int) := hin0.1
      omega
    · exact absurd h (by simp)
  · intro h0
    have hin : ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int)
          < ((⟨1, ![N]⟩ : Shape).size a : Int) := by
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [s0, w0, h0]; omega
    rw [dif_pos hin]
    congr 1
    funext a
    refine Fin.ext ?_
    match a with
    | ⟨0, _⟩ =>
      show ((vecScatterDims N E wf).start (ix1 e) idx 0 + ((vecScatterDims N E wf).window (ix1 e) 0 : Int)).toNat = p.val
      rw [s0, w0, h0]; omega

/-- THE SCATTER-ADD READ AT `p`: the operand's element plus the sum, over the positions `e` whose index is `p`, of
    the update's element `e`. -/
theorem vecScatterAdd_apply (x : (⟨1, ![N]⟩ : Shape).Idx → EReal) (upd : (⟨1, ![E]⟩ : Shape).Idx → EReal) (p : Fin N) :
    Ideal.hostScatterAdd (vecScatterDims N E wf) x idx upd (ix1 p)
      = x (ix1 p) + ∑ e ∈ Finset.univ.filter (fun e : Fin E => (idx (ix2 e (0 : Fin 1))).toInt = (p.val : Int)), upd (ix1 e) := by
  unfold Ideal.hostScatterAdd
  congr 1
  rw [Finset.sum_filter, Finset.sum_filter, sum_idx1]
  refine Finset.sum_congr rfl fun e _ => ?_
  simp only [vecScatter_resultIdx?_iff wf idx e p]

end Cert.VecScatter

end
-- ==== Proof.KernelHost.lean ====
/-
  The arrays the kernel's region finds, which the host operations before it computed from the arguments:

    raw[p, u]  =  Σ_{e enters p} a[e] · X[src e, u]      (a scatter-add, into zeros, of the weighted gathered rows)
    deg[p, 0]  =  Σ_{e enters p} a[e]                     (a scatter-add, into zeros, of the weights; then a column cast)
    bn2[0, v] = bn[v],  bgi2[0, v] = bgi[v],  bgn2[0, v] = bgn[v]     (casts of the bias vectors to one row)

  An edge enters node `p` when its destination word, read signed, is `p`; its source is its source word, with 50000
  added when negative, read signed and clamped into range. The conversions of the features to a narrower float
  format and back are the identity on the extended reals.
-/
import proofs.«130235_j26680336842924_2_alg».proof.Proof.Gen.KernelIdeal.Frame
import proofs.«130235_j26680336842924_2_alg».proof.Proof.Spec
import proofs.«130235_j26680336842924_2_alg».proof.Proof.LibRowGatherScatter
import proofs.«130235_j26680336842924_2_alg».proof.Proof.LibVecScatter
import proofs.«130235_j26680336842924_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelHost

open Cert.KernelIdeal Cert.KernelIdeal.Gen Idealize.ShloMosaic Idealize.ShloMosaic.TcCoe Idealize.SL.Sem
  Idealize.ShloMosaic.StableHlo Idealize.ShloMosaic.ValueIdx Cert.GatedLayer Cert.RowGatherScatter Cert.VecScatter

/-! ## Layout operations of this program read at an index -/

/-- A vector of 800000 entries as a column: entry `(e, 0)` is entry `e`. -/
theorem column_apply {α : Type} (y : S800000.Idx → α) (e : Fin 800000) :
    broadcastInDim S800000x1 ![0] bcast_S800000_S800000x1_0 y (ix2 e (0 : Fin 1)) = y (ix1 e) :=
  broadcastInDim_apply _ bcast_S800000_S800000x1_0 y (ix2 e (0 : Fin 1)) (ix1 e) (fun a => match a with
    | ⟨0, _⟩ => by show e.val = if (800000 : Nat) = 1 then 0 else e.val; rw [if_neg (by decide)])

/-- A column broadcast over 96 units: entry `(e, u)` is the column's entry `(e, 0)`. -/
theorem columnOver_apply {α : Type} (y : S800000x1.Idx → α) (e : Fin 800000) (u : Fin 96) :
    broadcastInDim S800000x96 ![0, 1] bcast_S800000x1_S800000x96_0_1 y (ix2 e u) = y (ix2 e (0 : Fin 1)) :=
  broadcastInDim_apply _ bcast_S800000x1_S800000x96_0_1 y (ix2 e u) (ix2 e (0 : Fin 1)) (fun a => match a with
    | ⟨0, _⟩ => by show e.val = if (800000 : Nat) = 1 then 0 else e.val; rw [if_neg (by decide)]
    | ⟨1, _⟩ => by show 0 = if (1 : Nat) = 1 then 0 else u.val; rw [if_pos rfl])

/-! ## This program's gather and scatter-adds read at an index -/

/-- The rows scatter-added into a [50000, 96] array at `(p, u)`: the operand's element plus the elements `(e, u)` of
    the rows whose index word, read signed, is `p`. -/
theorem scatterRows_apply (x : FVec Ideal S50000x96 .f32) (idx : IVec S800000x1 32) (upd : FVec Ideal S800000x96 .f32)
    (p : Fin 50000) (u : Fin 96) :
    Host.scatterAdd scatter_S50000x96_S800000x1_S800000x96_1_0_0_1 x idx upd (ix2 p u)
      = x (ix2 p u) + ∑ e ∈ Finset.univ.filter (fun e : Fin 800000 => (idx (ix2 e (0 : Fin 1))).toInt = (p.val : Int)), upd (ix2 e u) := by
  have h1 : Host.scatterAdd scatter_S50000x96_S800000x1_S800000x96_1_0_0_1 x idx upd
      = Ideal.hostScatterAdd scatter_S50000x96_S800000x1_S800000x96_1_0_0_1 x idx upd := rfl
  have h2 : scatter_S50000x96_S800000x1_S800000x96_1_0_0_1
      = rowScatterDims 50000 800000 96 scatter_S50000x96_S800000x1_S800000x96_1_0_0_1.wf := rfl
  rw [h1, h2]
  exact rowScatterAdd_apply _ idx x upd p u

/-- The elements scatter-added into a [50000] array at `p`. -/
theorem scatterVec_apply (x : FVec Ideal S50000 .f32) (idx : IVec S800000x1 32) (upd : FVec Ideal S800000 .f32) (p : Fin 50000) :
    Host.scatterAdd scatter_S50000_S800000x1_S800000_n_0_0_1 x idx upd (ix1 p)
      = x (ix1 p) + ∑ e ∈ Finset.univ.filter (fun e : Fin 800000 => (idx (ix2 e (0 : Fin 1))).toInt = (p.val : Int)), upd (ix1 e) := by
  have h1 : Host.scatterAdd scatter_S50000_S800000x1_S800000_n_0_0_1 x idx upd
      = Ideal.hostScatterAdd scatter_S50000_S800000x1_S800000_n_0_0_1 x idx upd := rfl
  have h2 : scatter_S50000_S800000x1_S800000_n_0_0_1
      = vecScatterDims 50000 800000 scatter_S50000_S800000x1_S800000_n_0_0_1.wf := rfl
  rw [h1, h2]
  exact vecScatterAdd_apply _ idx x upd p

/-- The rows gathered from a [50000, 96] array at `(e, u)`: element `u` of the row the index word selects. -/
theorem gatherRows_apply {α : Type} (x : S50000x96.Idx → α) (idx : IVec S800000x1 32) (e : Fin 800000) (u : Fin 96) :
    Host.gather gather_S50000x96_S800000x1_S800000x96_1_0_n_n_0_1_196 x idx (ix2 e u)
      = x (ix2 (clampRow 50000 (by decide) (idx (ix2 e (0 : Fin 1)))) u) := by
  have h : gather_S50000x96_S800000x1_S800000x96_1_0_n_n_0_1_196
      = rowGatherDims 50000 800000 96 gather_S50000x96_S800000x1_S800000x96_1_0_n_n_0_1_196.wf := rfl
  rw [h]
  exact rowGather_apply (by decide) _ x idx e u

/-- The index column made of the destination words selects, for node `p`, the edges entering `p`. -/
theorem entering_eq (row : IVec S800000 32) (p : Fin 50000) :
    Finset.univ.filter (fun e : Fin 800000 =>
        ((broadcastInDim S800000x1 ![0] bcast_S800000_S800000x1_0 row) (ix2 e (0 : Fin 1))).toInt = (p.val : Int))
      = inEdges (fun e => row (ix1 e)) p := by
  unfold inEdges
  exact Finset.filter_congr (fun e _ => by rw [column_apply])

/-- A segment sum of rows: at `(p, u)` the operand's element plus the elements `(e, u)` of the edges entering `p`. -/
theorem segRows_apply (x : FVec Ideal S50000x96 .f32) (row : IVec S800000 32) (upd : FVec Ideal S800000x96 .f32)
    (p : Fin 50000) (u : Fin 96) :
    Host.scatterAdd scatter_S50000x96_S800000x1_S800000x96_1_0_0_1 x (broadcastInDim S800000x1 ![0] bcast_S800000_S800000x1_0 row) upd (ix2 p u)
      = x (ix2 p u) + ∑ e ∈ inEdges (fun e => row (ix1 e)) p, upd (ix2 e u) := by
  rw [scatterRows_apply, entering_eq]

/-- A segment sum of a vector: at `p` the operand's element plus the elements of the edges entering `p`. -/
theorem segVec_apply (x : FVec Ideal S50000 .f32) (row : IVec S800000 32) (upd : FVec Ideal S800000 .f32) (p : Fin 50000) :
    Host.scatterAdd scatter_S50000_S800000x1_S800000_n_0_0_1 x (broadcastInDim S800000x1 ![0] bcast_S800000_S800000x1_0 row) upd (ix1 p)
      = x (ix1 p) + ∑ e ∈ inEdges (fun e => row (ix1 e)) p, upd (ix1 e) := by
  rw [scatterVec_apply, entering_eq]

/-! ## The host terms -/

/-- The source words as the program normalises them, as a column. -/
def srcColumn (col : IVec S800000 32) : IVec S800000x1 32 :=
  broadcastInDim S800000x1 ![0] bcast_S800000_S800000x1_0
    (select (cmpi CmpIPredicate.slt col (broadcastInDim S800000 ![] bcast_S_S800000 (constantI S_ 32 0#32)))
      (addi col (broadcastInDim S800000 ![] bcast_S_S800000 (constantI S_ 32 50000#32))) col)

theorem srcColumn_apply (col : IVec S800000 32) (e : Fin 800000) :
    srcColumn col (ix2 e (0 : Fin 1)) = wrapWord (col (ix1 e)) := by
  unfold srcColumn
  rw [column_apply]
  rfl

/-- The raw aggregated messages: the weighted gathered feature rows scatter-added into zeros. -/
def rawAgg (X : FVec Ideal S50000x96 .f32) (a : FVec Ideal S800000 .f32) (row col : IVec S800000 32) : FVec Ideal S50000x96 .f32 :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 row)
    (mulf (broadcastInDim S800000x96 ![0, 1] bcast_S800000x1_S800000x96_0_1 (broadcastInDim S800000x1 ![0] bcast_S800000_S800000x1_0 a))
      (extf .f32 (Host.gather gather_S50000x96_S800000x1_S800000x96_1_0_n_n_0_1_196 (truncf .bf16 X bitsLt_bf16_f32) (srcColumn col)) bitsLt_bf16_f32))

/-- The total edge weight per node, as a column. -/
def degColumn (a : FVec Ideal S800000 .f32) (row : IVec S800000 32) : FVec Ideal S50000x1 .f32 :=
  shapeCast S50000x1
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 row) a)
    shapeCasts_S50000_S50000x1

/-- A bias vector as one row. -/
def biasRow (b : FVec Ideal S96 .f32) : FVec Ideal S1x96 .f32 := shapeCast S1x96 b shapeCasts_S96_S1x96

theorem biasRow_apply (b : FVec Ideal S96 .f32) (v : Fin 96) : biasRow b (ix2 (0 : Fin 1) v) = b (ix1 v) :=
  shapeCast_a_1a_apply b shapeCasts_S96_S1x96 (0 : Fin 1) v

theorem zeros_apply (s : Shape) (h : S_.BroadcastsInDim s ![]) (i : s.Idx) :
    broadcastInDim s ![] h (constant (F := Ideal) S_ .f32 0x00000000#32) i = (0 : EReal) := by
  rw [broadcastInDim_apply _ h _ i ix0 (fun a => a.elim0)]
  exact Ideal.ofBits_zero_f32

/-- One edge's message at unit `u`: its weight times its source node's feature. -/
theorem message_apply (X : FVec Ideal S50000x96 .f32) (a : FVec Ideal S800000 .f32) (col : IVec S800000 32) (e : Fin 800000) (u : Fin 96) :
    mulf (broadcastInDim S800000x96 ![0, 1] bcast_S800000x1_S800000x96_0_1 (broadcastInDim S800000x1 ![0] bcast_S800000_S800000x1_0 a))
      (extf .f32 (Host.gather gather_S50000x96_S800000x1_S800000x96_1_0_n_n_0_1_196 (truncf .bf16 X bitsLt_bf16_f32) (srcColumn col)) bitsLt_bf16_f32) (ix2 e u)
      = a (ix1 e) * X (ix2 (srcNode (fun e => wrapWord (col (ix1 e))) e) u) := by
  refine (mulf_apply _ _ (ix2 e u)).trans ?_
  refine congrArg₂ (· * ·) ?_ ?_
  · exact (columnOver_apply _ e u).trans (column_apply a e)
  · refine (extf_apply (ψ := .f32) _ bitsLt_bf16_f32 (ix2 e u)).trans ?_
    refine (gatherRows_apply _ (srcColumn col) e u).trans ?_
    refine (truncf_apply (ψ := .bf16) X bitsLt_bf16_f32 _).trans ?_
    unfold srcNode
    rw [srcColumn_apply]

theorem rawAgg_apply (X : FVec Ideal S50000x96 .f32) (a : FVec Ideal S800000 .f32) (row col : IVec S800000 32) (p : Fin 50000) (u : Fin 96) :
    rawAgg X a row col (ix2 p u)
      = ∑ e ∈ inEdges (fun e => row (ix1 e)) p, a (ix1 e) * X (ix2 (srcNode (fun e => wrapWord (col (ix1 e))) e) u) := by
  unfold rawAgg
  refine (segRows_apply _ row _ p u).trans ?_
  rw [zeros_apply, zero_add]
  exact Finset.sum_congr rfl fun e _ => message_apply X a col e u

theorem degColumn_apply (a : FVec Ideal S800000 .f32) (row : IVec S800000 32) (p : Fin 50000) :
    degColumn a row (ix2 p (0 : Fin 1)) = ∑ e ∈ inEdges (fun e => row (ix1 e)) p, a (ix1 e) := by
  unfold degColumn
  refine (Keepdims.shapeCast_a_a1_apply _ shapeCasts_S50000_S50000x1 p (0 : Fin 1)).trans ?_
  refine (segVec_apply _ row a p).trans ?_
  rw [zeros_apply, zero_add]

/-! ## The arrays as the region finds them -/

variable (m : (ℓ : Loc nD τ sig) → Buf (Elt Ideal) ℓ)

theorem V_raw (c : Dev nD) : (V m c main_v17 : S50000x96.Idx → EReal)
    = rawAgg (m ((c : Thread nD τ).loc main_arg0)) (m ((c : Thread nD τ).loc main_arg1)) (m ((c : Thread nD τ).loc main_arg8)) (m ((c : Thread nD τ).loc main_arg9)) := by
  dsimp only [Gen.V, Gen.hostOps0]
  after_results_simp
  rfl

theorem V_deg (c : Dev nD) : (V m c main_v21 : S50000x1.Idx → EReal)
    = degColumn (m ((c : Thread nD τ).loc main_arg1)) (m ((c : Thread nD τ).loc main_arg8)) := by
  dsimp only [Gen.V, Gen.hostOps0]
  after_results_simp
  rfl

theorem V_bn (c : Dev nD) : (V m c main_v0 : S1x96.Idx → EReal) = biasRow (m ((c : Thread nD τ).loc main_arg3)) := by
  dsimp only [Gen.V, Gen.hostOps0]
  after_results_simp
  rfl

theorem V_bgi (c : Dev nD) : (V m c main_v1 : S1x96.Idx → EReal) = biasRow (m ((c : Thread nD τ).loc main_arg5)) := by
  dsimp only [Gen.V, Gen.hostOps0]
  after_results_simp
  rfl

theorem V_bgn (c : Dev nD) : (V m c main_v2 : S1x96.Idx → EReal) = biasRow (m ((c : Thread nD τ).loc main_arg7)) := by
  dsimp only [Gen.V, Gen.hostOps0]
  after_results_simp
  rfl

end Cert.KernelHost

end
-- ==== Proof.KernelRun.lean ====
/-
  The idealized kernel's run, read: its result array is the layer's output with the aggregated messages in the
  PROJECTED arrangement — the raw messages summed over the entering edges first, then projected by `Wn`, plus the total
  entering weight times `bn`.
-/
import proofs.«130235_j26680336842924_2_alg».proof.Proof.KernelValue
import proofs.«130235_j26680336842924_2_alg».proof.Proof.KernelHost

noncomputable section

namespace Cert.KernelRun

open Cert.KernelIdeal Cert.KernelIdeal.Gen Cert.KernelIdeal.Value Idealize.ShloMosaic Idealize.ShloMosaic.TcCoe Idealize.SL.Sem
  Idealize.ShloMosaic.ValueIdx Cert.GatedLayer Cert.KernelBody Cert.KernelValue Cert.KernelHost

variable (m : (ℓ : Loc nD τ sig) → Buf (Elt Ideal) ℓ) (ρ : Dev nD → PrngReg)

/-- The layer's output from the argument arrays, messages projected after the sum over edges. -/
abbrev kernelResult (c : Dev nD) : S50000x96.Idx → EReal :=
  layerOut (m ((c : Thread nD τ).loc main_arg0))
    (aggProjected (m ((c : Thread nD τ).loc main_arg0)) (m ((c : Thread nD τ).loc main_arg1)) (m ((c : Thread nD τ).loc main_arg2))
      (m ((c : Thread nD τ).loc main_arg3)) (fun e => wrapWord (m ((c : Thread nD τ).loc main_arg9) (ix1 e)))
      (fun e => m ((c : Thread nD τ).loc main_arg8) (ix1 e)))
    (m ((c : Thread nD τ).loc main_arg4)) (m ((c : Thread nD τ).loc main_arg5)) (m ((c : Thread nD τ).loc main_arg6))
    (m ((c : Thread nD τ).loc main_arg7))

/-- The second window's array is the raw aggregated messages. -/
theorem window1_eq (c : Dev nD) : (V m c (Pipeline.arrRef spec0 1) : S50000x96.Idx → EReal)
    = rawAgg (m ((c : Thread nD τ).loc main_arg0)) (m ((c : Thread nD τ).loc main_arg1)) (m ((c : Thread nD τ).loc main_arg8)) (m ((c : Thread nD τ).loc main_arg9)) :=
  V_raw m c

/-- The third window's array is the column of total entering weights. -/
theorem window2_eq (c : Dev nD) : (V m c (Pipeline.arrRef spec0 2) : S50000x1.Idx → EReal)
    = degColumn (m ((c : Thread nD τ).loc main_arg1)) (m ((c : Thread nD τ).loc main_arg8)) :=
  V_deg m c

/-- One node's output from the host-made arrays is its output from the arguments, messages projected after the sum. -/
theorem nodeOut_eq (X : FVec Ideal S50000x96 .f32) (a : FVec Ideal S800000 .f32) (Wn : FVec Ideal S96x96 .f32) (bn : FVec Ideal S96 .f32)
    (Wgi : FVec Ideal S96x96 .f32) (bgi : FVec Ideal S96 .f32) (Wgn : FVec Ideal S96x96 .f32) (bgn : FVec Ideal S96 .f32)
    (row col : IVec S800000 32) (p : Fin 50000) (v : Fin 96) :
    nodeOut X (rawAgg X a row col) (degColumn a row) Wn (biasRow bn) Wgi (biasRow bgi) Wgn (biasRow bgn) p v
      = gatedAt (fun k => X (ix2 p k)) (aggProjected X a Wn bn (fun e => wrapWord (col (ix1 e))) (fun e => row (ix1 e)) p)
          (fun k v => Wgi (ix2 k v)) (fun v => bgi (ix1 v)) (fun k v => Wgn (ix2 k v)) (fun v => bgn (ix1 v)) v := by
  unfold nodeOut aggProjected
  simp only [rawAgg_apply, degColumn_apply, biasRow_apply]

/-- The whole-array function of the arrays the region finds is that output: the raw messages, the total weights and
    the bias rows are what the host operations before the region made of the arguments. -/
theorem regionOut_eq (c : Dev nD) : regionOut m c = kernelResult m c := by
  unfold regionOut
  rw [V_main_arg0, V_main_arg2, V_main_arg4, V_main_arg6, window1_eq, window2_eq, V_bn, V_bgi, V_bgn]
  funext i
  unfold arrayOut kernelResult layerOut
  exact nodeOut_eq _ _ _ _ _ _ _ _ _ _ (i 0) (i 1)

/-- The run of the idealized kernel, with its result array named. -/
theorem run : θ_run defs (onTc (τ := τ) (main (F := Ideal))) ⟨m, fun _ => 0, ρ⟩ fun r => ∀ c : Dev nD,
      r.2.mem ((c : Thread nD τ).loc main_v22) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (regionOut_eq m c)), (h c).2⟩) (run_blocks m ρ)

end Cert.KernelRun

end
-- ==== Proof.RefValue.lean ====
/-
  The reference program's result, read index by index, is the gated layer of the specification.

  The program computes  newX = X·Wn + bn,  one message  a[e] · newX[src e, ·]  per edge (a gather of rows), the
  aggregate  agg[p, ·] = Σ_{e enters p} message e  (a scatter-add of rows into zeros), the gate
  g = 1 / (1 + exp (−(((X·Wgi + bgi) + agg·Wgn) + bgn)))  and the output  agg·g + X·(1 − g).
  Read at one element (p, v) this is the specification's `layerOut` over the message arrangement `aggMessages` of the
  aggregate, up to two respellings: the gate's argument is re-associated, and the quotient  1 / (1 + exp (−z))  is the
  logistic function of z, the program's constant one being the real number 1.
-/
import proofs.«130235_j26680336842924_2_alg».proof.Proof.Gen.ReferenceIdeal.Read
import proofs.«130235_j26680336842924_2_alg».proof.Proof.Spec
import proofs.«130235_j26680336842924_2_alg».proof.Proof.LibRowGatherScatter
import Idealize.ShloMosaic.Lib.ValueIdx
import Idealize.ShloMosaic.PureOps.Ideal.Laws

noncomputable section

open scoped BigOperators

namespace Cert.RefValue

open Cert.ReferenceIdeal Cert.ReferenceIdeal.Read Idealize.ShloMosaic Idealize.ShloMosaic.ValueIdx
open Cert.RowGatherScatter Cert.GatedLayer

section Lemmas

variable (x0 : (⟨S50000x96, .f32⟩ : BufTy).Contents (Elt Ideal)) (x1 : (⟨S800000, .f32⟩ : BufTy).Contents (Elt Ideal))
  (x2 : (⟨S96x96, .f32⟩ : BufTy).Contents (Elt Ideal)) (x3 : (⟨S96, .f32⟩ : BufTy).Contents (Elt Ideal))
  (x4 : (⟨S96x96, .f32⟩ : BufTy).Contents (Elt Ideal)) (x5 : (⟨S96, .f32⟩ : BufTy).Contents (Elt Ideal))
  (x6 : (⟨S96x96, .f32⟩ : BufTy).Contents (Elt Ideal)) (x7 : (⟨S96, .f32⟩ : BufTy).Contents (Elt Ideal))
  (x8 x9 : (⟨S800000, .i32⟩ : BufTy).Contents (Elt Ideal))

/-! ## The constants -/

/-- The pattern 0x3F800000 denotes the real number one. -/
theorem one_eq : Ideal.ofBits .f32 0x3F800000#32 = 1 := by
  simp [Ideal.ofBits, Ideal.ieee, -EReal.coe_mul]; norm_num

/-- The program's quotient  one / (one + exp (−z))  is the logistic function of `z`. -/
theorem logistic_spelled (z : EReal) :
    Ideal.div (Ideal.ofBits .f32 0x3F800000#32) (Ideal.ofBits .f32 0x3F800000#32 + Ideal.exp (-z)) = Ideal.logistic z := by
  rw [one_eq]; rfl

/-! ## The projected features  newX = X·Wn + bn -/

/-- Element `(p, v)` of the projected features: row `p` of `X` against column `v` of `Wn`, plus the bias. -/
theorem newX_apply (p : Fin 50000) (v : Fin 96) :
    val_main_v3 (F := Ideal) x0 x2 x3 (ix2 p v) = (∑ u : Fin 96, x0 (ix2 p u) * x2 (ix2 u v)) + x3 (ix1 v) := by
  rw [val_main_v3_apply, val_main_v0_apply, val_main_v2_apply, val_main_v1_apply]
  have hl : ∀ k : Fin 96, lidx_main_v0 (ix2 p v) k = ix2 p k := fun k =>
    funext fun a => by match a with | ⟨0, _⟩ => rfl | ⟨1, _⟩ => rfl
  have hr : ∀ k : Fin 96, ridx_main_v0 (ix2 p v) k = ix2 k v := fun k =>
    funext fun a => by match a with | ⟨0, _⟩ => rfl | ⟨1, _⟩ => rfl
  have hb : idx_main_v1 (idx_main_v2 (ix2 p v)) = ix1 v :=
    funext fun a => by match a with | ⟨0, _⟩ => rfl
  rw [hb]
  simp only [hl, hr]
  rfl

/-! ## The two index columns -/

/-- The source column at row `e` is the edge's source word, normalised. -/
theorem srcWord_apply (e : Fin 800000) :
    val_main_v10 (F := Ideal) x9 (ix2 e (0 : Fin 1)) = wrapWord (x9 (ix1 e)) := by
  rw [val_main_v10_apply]
  have hi : idx_main_v10 (ix2 e (0 : Fin 1)) = ix1 e := funext fun a => by match a with | ⟨0, _⟩ => rfl
  rw [hi, val_main_v9_apply, val_main_v6_apply, val_main_v8_apply, val_main_v5_apply, val_main_v7_apply,
    val_main_c_apply, val_main_c_0_apply]
  rfl

/-- The destination column at row `e` is the edge's destination word. -/
theorem dstWord_apply (e : Fin 800000) :
    val_main_v15 (F := Ideal) x8 (ix2 e (0 : Fin 1)) = x8 (ix1 e) := by
  rw [val_main_v15_apply]
  have hi : idx_main_v15 (ix2 e (0 : Fin 1)) = ix1 e := funext fun a => by match a with | ⟨0, _⟩ => rfl
  rw [hi]

/-! ## One message per edge -/

/-- The gathered row of edge `e` is the row of the projected features that its normalised source word selects, clamped
    into range. -/
theorem gathered_raw (e : Fin 800000) (q : Fin 96) :
    val_main_v11 (F := Ideal) x0 x2 x3 x9 (ix2 e q)
      = val_main_v3 (F := Ideal) x0 x2 x3 (ix2 (clampRow 50000 (by decide) (val_main_v10 (F := Ideal) x9 (ix2 e (0 : Fin 1)))) q) := by
  unfold val_main_v11
  exact rowGather_apply (N := 50000) (E := 800000) (C := 96) (by decide)
    Facts₀.gather_S50000x96_S800000x1_S800000x96_1_0_n_n_0_1_196_wf
    (val_main_v3 (F := Ideal) x0 x2 x3) (val_main_v10 (F := Ideal) x9) e q

/-- The gathered row of edge `e` is the projected row of its source node. -/
theorem gathered_apply (e : Fin 800000) (q : Fin 96) :
    val_main_v11 (F := Ideal) x0 x2 x3 x9 (ix2 e q)
      = (∑ u : Fin 96, x0 (ix2 (srcNode (fun e => wrapWord (x9 (ix1 e))) e) u) * x2 (ix2 u q)) + x3 (ix1 q) := by
  unfold srcNode
  rw [gathered_raw, srcWord_apply, newX_apply]

/-- The message of edge `e` at unit `q`: its weight times the projected row of its source node. -/
theorem message_apply (e : Fin 800000) (q : Fin 96) :
    val_main_v13 (F := Ideal) x0 x1 x2 x3 x9 (ix2 e q)
      = x1 (ix1 e) * ((∑ u : Fin 96, x0 (ix2 (srcNode (fun e => wrapWord (x9 (ix1 e))) e) u) * x2 (ix2 u q)) + x3 (ix1 q)) := by
  rw [val_main_v13_apply, val_main_v12_apply, val_main_v4_apply, gathered_apply]
  have hi : idx_main_v4 (idx_main_v12 (ix2 e q)) = ix1 e := funext fun a => by match a with | ⟨0, _⟩ => rfl
  rw [hi]
  exact Ideal.mulf_def _ _

/-- Over the extended reals the accumulating scatter is the exact sum of the colliding updates. -/
theorem hostScatterAdd_ideal {s si su : Shape} {w : Nat} (d : ScatterDims s si su) (x : s.Idx → EReal) (idx : IVec si w)
    (upd : su.Idx → EReal) :
    Host.scatterAdd (F := Ideal) (φ := .f32) d x idx upd = Ideal.hostScatterAdd d x idx upd := rfl

/-- The program's scatter dimension numbers are those of a row scatter. -/
theorem scatterDims_eq : scatter_S50000x96_S800000x1_S800000x96_1_0_0_1
    = rowScatterDims 50000 800000 96 Facts₀.scatter_S50000x96_S800000x1_S800000x96_1_0_0_1_wf := rfl

/-! ## The aggregate -/

/-- The scatter-add read at `(p, r)`: the operand's element plus the sum of the messages whose destination word is `p`. -/
theorem agg_raw (p : Fin 50000) (r : Fin 96) :
    val_main_v16 (F := Ideal) x0 x1 x2 x3 x8 x9 (ix2 p r)
      = val_main_v14 (F := Ideal) (ix2 p r) + ∑ e ∈ Finset.univ.filter (fun e : Fin 800000 => (val_main_v15 (F := Ideal) x8 (ix2 e (0 : Fin 1))).toInt = (p.val : Int)), val_main_v13 (F := Ideal) x0 x1 x2 x3 x9 (ix2 e r) := by
  unfold val_main_v16
  rw [hostScatterAdd_ideal, scatterDims_eq]
  exact rowScatterAdd_apply (N := 50000) (E := 800000) (C := 96)
    Facts₀.scatter_S50000x96_S800000x1_S800000x96_1_0_0_1_wf (val_main_v15 (F := Ideal) x8)
    (val_main_v14 (F := Ideal)) (val_main_v13 (F := Ideal) x0 x1 x2 x3 x9) p r

/-- The scatter-add of the messages into zeros, read at `(p, r)`, is the specification's aggregated message. -/
theorem agg_apply (p : Fin 50000) (r : Fin 96) :
    val_main_v16 (F := Ideal) x0 x1 x2 x3 x8 x9 (ix2 p r)
      = aggMessages x0 x1 x2 x3 (fun e => wrapWord (x9 (ix1 e))) (fun e => x8 (ix1 e)) p r := by
  rw [agg_raw, val_main_v14_apply, val_main_cst_apply, Ideal.ofBits_def, Ideal.ofBits_zero_f32, zero_add]
  unfold aggMessages inEdges
  exact Finset.sum_congr (Finset.filter_congr fun e _ => by rw [dstWord_apply])
    fun e _ => message_apply x0 x1 x2 x3 x9 e r

/-! ## The gate's argument -/

/-- The program adds  ((X·Wgi + bgi) + agg·Wgn) + bgn;  the specification's argument is the same sum re-associated. -/
theorem gateArg_apply (p : Fin 50000) (v : Fin 96) :
    val_main_v25 (F := Ideal) x0 x1 x2 x3 x4 x5 x6 x7 x8 x9 (ix2 p v)
      = gateArg (fun k => x0 (ix2 p k))
          (aggMessages x0 x1 x2 x3 (fun e => wrapWord (x9 (ix1 e))) (fun e => x8 (ix1 e)) p)
          (fun k v => x4 (ix2 k v)) (fun v => x5 (ix1 v)) (fun k v => x6 (ix2 k v)) (fun v => x7 (ix1 v)) v := by
  rw [val_main_v25_apply, val_main_v22_apply, val_main_v20_apply, val_main_v17_apply, val_main_v19_apply,
    val_main_v18_apply, val_main_v21_apply, val_main_v24_apply, val_main_v23_apply]
  have hl17 : ∀ k : Fin 96, lidx_main_v17 (ix2 p v) k = ix2 p k := fun k =>
    funext fun a => by match a with | ⟨0, _⟩ => rfl | ⟨1, _⟩ => rfl
  have hr17 : ∀ k : Fin 96, ridx_main_v17 (ix2 p v) k = ix2 k v := fun k =>
    funext fun a => by match a with | ⟨0, _⟩ => rfl | ⟨1, _⟩ => rfl
  have hl21 : ∀ k : Fin 96, lidx_main_v21 (ix2 p v) k = ix2 p k := fun k =>
    funext fun a => by match a with | ⟨0, _⟩ => rfl | ⟨1, _⟩ => rfl
  have hr21 : ∀ k : Fin 96, ridx_main_v21 (ix2 p v) k = ix2 k v := fun k =>
    funext fun a => by match a with | ⟨0, _⟩ => rfl | ⟨1, _⟩ => rfl
  have hb19 : idx_main_v18 (idx_main_v19 (ix2 p v)) = ix1 v := funext fun a => by match a with | ⟨0, _⟩ => rfl
  have hb24 : idx_main_v23 (idx_main_v24 (ix2 p v)) = ix1 v := funext fun a => by match a with | ⟨0, _⟩ => rfl
  rw [hb19, hb24]
  simp only [hl17, hr17, hl21, hr21, agg_apply, Ideal.addf_def]
  unfold gateArg
  rw [add_assoc]

/-! ## The whole layer -/

/-- The reference program's result at `(p, v)`:  agg·g + x·(one − g)  with  g  the logistic of the gate's argument. -/
theorem out_apply (p : Fin 50000) (v : Fin 96) :
    val_main_v36 (F := Ideal) x0 x1 x2 x3 x4 x5 x6 x7 x8 x9 (ix2 p v)
      = gatedAt (fun k => x0 (ix2 p k))
          (aggMessages x0 x1 x2 x3 (fun e => wrapWord (x9 (ix1 e))) (fun e => x8 (ix1 e)) p)
          (fun k v => x4 (ix2 k v)) (fun v => x5 (ix1 v)) (fun k v => x6 (ix2 k v)) (fun v => x7 (ix1 v)) v := by
  unfold gatedAt
  rw [val_main_v36_apply, val_main_v32_apply, val_main_v35_apply, val_main_v34_apply, val_main_v31_apply,
    val_main_v29_apply, val_main_v27_apply, val_main_v26_apply, val_main_v30_apply, val_main_v28_apply,
    val_main_v33_apply, val_main_cst_1_apply, val_main_cst_2_apply, val_main_cst_3_apply, gateArg_apply, agg_apply]
  simp only [Ideal.addf_def, Ideal.mulf_def, Ideal.subf_def, Ideal.hostDivf_def, Ideal.hostUnary_exp_def,
    Ideal.hostNegf_def, Ideal.negf_def, Ideal.ofBits_def, logistic_spelled]

end Lemmas

/-- THE REFERENCE IS THE SPECIFICATION: the reference program's result is the gated layer over the message arrangement
    of the aggregate, the source words normalised and the destination words as given. -/
theorem reference_eq (x0 : (⟨S50000x96, .f32⟩ : BufTy).Contents (Elt Ideal)) (x1 : (⟨S800000, .f32⟩ : BufTy).Contents (Elt Ideal))
    (x2 : (⟨S96x96, .f32⟩ : BufTy).Contents (Elt Ideal)) (x3 : (⟨S96, .f32⟩ : BufTy).Contents (Elt Ideal))
    (x4 : (⟨S96x96, .f32⟩ : BufTy).Contents (Elt Ideal)) (x5 : (⟨S96, .f32⟩ : BufTy).Contents (Elt Ideal))
    (x6 : (⟨S96x96, .f32⟩ : BufTy).Contents (Elt Ideal)) (x7 : (⟨S96, .f32⟩ : BufTy).Contents (Elt Ideal))
    (x8 x9 : (⟨S800000, .i32⟩ : BufTy).Contents (Elt Ideal)) :
    val_main_v36 (F := Ideal) x0 x1 x2 x3 x4 x5 x6 x7 x8 x9
      = Cert.GatedLayer.layerOut x0 (Cert.GatedLayer.aggMessages x0 x1 x2 x3
          (fun e => Cert.GatedLayer.wrapWord (x9 (ix1 e))) (fun e => x8 (ix1 e))) x4 x5 x6 x7 := by
  funext i
  obtain ⟨p, v, rfl⟩ : ∃ (p : Fin 50000) (v : Fin 96), i = ix2 p v := ⟨i 0, i 1, eq_ix2 i⟩
  exact out_apply x0 x1 x2 x3 x4 x5 x6 x7 x8 x9 p v

end Cert.RefValue

end
-- ==== Proof.lean ====
/-
  A gated message-passing layer on a graph of 50000 nodes and 800000 weighted edges, features of width 96: the kernel
  against its jnp reference, as exact functions on the extended reals.

  Both programs compute  out[p, v] = agg[p, v]·g + X[p, v]·(1 − g),  g = logistic((X[p,·]·Wgi[·,v] + bgi[v]) +
  (agg[p,·]·Wgn[·,v] + bgn[v])),  where agg[p, ·] is the sum over the edges e entering node p of a[e]·(X[src e, ·]·Wn + bn).
  The reference projects every edge's source row by Wn, adds bn, weights it and sums over the entering edges. The kernel's
  program first sums the weighted raw source rows and the weights over the entering edges (host operations), and the kernel
  projects the sum by Wn and adds (total weight)·bn: distributivity and an exchange of two finite sums, valid because the
  precondition makes X, a, Wn, bn real-valued. The gate's argument is grouped differently in the two programs
  (associativity of the sum), and the reference spells the logistic function as 1 / (1 + exp(−z)). Which edges enter a node
  and which node is an edge's source are decided by the same integer operations in both programs.

  The kernel's run is read block by block: 25 grid points, point t writing rows 2000·t … of one whole-array function. The
  three frame claims are the generated frame runs; no operation of the kernel was rewritten in its idealization.
-/
import proofs.«130235_j26680336842924_2_alg».proof.Defs
import proofs.«130235_j26680336842924_2_alg».proof.Proof.Gen.Kernel
import proofs.«130235_j26680336842924_2_alg».proof.Proof.Gen.Kernel.Frame
import proofs.«130235_j26680336842924_2_alg».proof.Proof.Gen.KernelIdeal
import proofs.«130235_j26680336842924_2_alg».proof.Proof.Gen.KernelIdeal.Frame
import proofs.«130235_j26680336842924_2_alg».proof.Proof.Gen.ReferenceIdeal
import proofs.«130235_j26680336842924_2_alg».proof.Proof.Gen.ReferenceIdeal.Run
import proofs.«130235_j26680336842924_2_alg».proof.Proof.Gen.ReferenceIdeal.Read
import proofs.«130235_j26680336842924_2_alg».proof.Proof.Gen.Pre_finite_inputs
import proofs.«130235_j26680336842924_2_alg».proof.Proof.Spec
import proofs.«130235_j26680336842924_2_alg».proof.Proof.FiniteInputs
import proofs.«130235_j26680336842924_2_alg».proof.Proof.KernelRun
import proofs.«130235_j26680336842924_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer's output: the kernel's with the messages projected after the sum over edges, the
    reference's with each edge's source row projected before it — equal because the precondition makes the features, the
    weights, `Wn` and `bn` real-valued. -/
theorem algebraic : Cert.algebraic_KernelIdeal_ReferenceIdeal := by
  intro m ρ m' ρ' hpre hagree
  refine ⟨fun c => Cert.KernelRun.kernelResult m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hX, ha, hW, hb⟩ := Cert.FiniteInputs.reals_of_pre _ _ _ _ _ _ _ _ _ _ (hpre c)
  obtain ⟨g0, g1, g2, g3, g4, g5, g6, g7, g8, g9⟩ := hagree c
  rw [Cert.ReferenceIdeal.Read.val_main_v36_eq, Cert.RefValue.reference_eq, g0, g1, g2, g3, g4, g5, g6, g7, g8, g9]
  unfold Cert.KernelRun.kernelResult
  refine congrArg (fun agg => Cert.GatedLayer.layerOut _ agg _ _ _ _) (funext fun p => funext fun v => ?_)
  exact (Cert.GatedLayer.aggProjected_eq_aggMessages _ _ _ _ _ _ hX ha hW hb p v).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
